-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S512x512 : Shape := ⟨2, ![512, 512]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x8192x512 .f32) (main_arg1 : FVec F S512x512 .f32) (main_arg2 : FVec F S512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x8192x512 : Shape := ⟨3, ![8, 8192, 512]⟩
abbrev S512x512 : Shape := ⟨2, ![512, 512]⟩
abbrev S512 : Shape := ⟨1, ![512]⟩
abbrev S65536x512 : Shape := ⟨2, ![65536, 512]⟩
abbrev S1x1 : Shape := ⟨2, ![1, 1]⟩
abbrev S4096x512 : Shape := ⟨2, ![4096, 512]⟩
abbrev S4096 : Shape := ⟨1, ![4096]⟩
abbrev S4096x1 : Shape := ⟨2, ![4096, 1]⟩
abbrev S1 : Shape := ⟨1, ![1]⟩
abbrev S_ : Shape := ⟨0, ![]⟩
abbrev S512x1 : Shape := ⟨2, ![512, 1]⟩
abbrev S1x512 : Shape := ⟨2, ![1, 512]⟩
abbrev S2048x512 : Shape := ⟨2, ![2048, 512]⟩

abbrev nBuf : Space → Nat
  | .hbm => 48
  | .vmem => 11
  | .smem => 0
  | _ => 0

abbrev bufTy : (tb : Table) → Fin (tcTables nBuf tb) → BufTy
  | .hbm, ⟨0, _⟩ => ⟨S8x8192x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S512x512, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .bf16⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S1x512, .f32⟩
  | .hbm, ⟨46, _⟩ => ⟨S65536x512, .f32⟩
  | .hbm, ⟨47, _⟩ => ⟨S8x8192x512, .f32⟩
  | .local _ .vmem, ⟨0, _⟩ => ⟨S4096x512, .f32⟩
  | .local _ .vmem, ⟨1, _⟩ => ⟨S4096x512, .f32⟩
  | .local _ .vmem, ⟨2, _⟩ => ⟨S1x1, .f32⟩
  | .local _ .vmem, ⟨3, _⟩ => ⟨S1x1, .f32⟩
  | .local _ .vmem, ⟨4, _⟩ => ⟨S2048x512, .f32⟩
  | .local _ .vmem, ⟨5, _⟩ => ⟨S2048x512, .f32⟩
  | .local _ .vmem, ⟨6, _⟩ => ⟨S512x512, .bf16⟩
  | .local _ .vmem, ⟨7, _⟩ => ⟨S1x512, .f32⟩
  | .local _ .vmem, ⟨8, _⟩ => ⟨S1x1, .f32⟩
  | .local _ .vmem, ⟨9, _⟩ => ⟨S2048x512, .f32⟩
  | .local _ .vmem, ⟨10, _⟩ => ⟨S2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_c_4 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v15 : BitVec 1 := Scalar.cmpi .eq arg0 c15_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8x8192x512_S65536x512 : S8x8192x512.ShapeCasts S65536x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S4096x512_S4096 : S4096x512.Reduces [1] S4096
  shapeCasts_S4096_S4096x1 : S4096.ShapeCasts S4096x1
  reduces_S4096x1_S1 : S4096x1.Reduces [0] S1
  shapeCasts_S1_S1x1 : S1.ShapeCasts S1x1
  bcast_S_S1x1 : S_.BroadcastsInDim S1x1 (![] : Fin 0 → Fin S1x1.rank)
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S1x1_S_ : S1x1.ShapeCasts S_
  shapeCasts_S512x1_S512 : S512x1.ShapeCasts S512
  bcast_S_S512 : S_.BroadcastsInDim S512 (![] : Fin 0 → Fin S512.rank)
  shapeCasts_S512_S1x512 : S512.ShapeCasts S1x512
  inpos_S1x1_p0_0 : ∀ a, (![0, 0] : Fin 2 → Nat) a < S1x1.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S65536x512_S8x8192x512 : S65536x512.ShapeCasts S8x8192x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S65536x512.size a
  hwx1_4 : ∀ i : grid1.Coords, EltTy.bits .f32 = 32 ∨ (Rect.block (s := S65536x512) S2048x512.size (cc1_transform_4 i) (hinb1_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x8192x512 : Shape := ⟨3, ![8, 8192, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x1x512 : Shape := ⟨3, ![1, 1, 512]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S512x512, .f32⟩
  | .hbm, ⟨2, _⟩ => ⟨S512, .f32⟩
  | .hbm, ⟨3, _⟩ => ⟨S8x8192x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x512, .f32⟩
  | .hbm, ⟨9, _⟩ => ⟨S8x8192x512, .f32⟩
  | .hbm, ⟨10, _⟩ => ⟨S8x8192x512, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S8x8192x512, .f32⟩
  | .hbm, ⟨15, _⟩ => ⟨S8x8192x512, .f32⟩
  | .hbm, ⟨16, _⟩ => ⟨S_, .f32⟩
  | .hbm, ⟨17, _⟩ => ⟨S8x8192x512, .f32⟩
  | .hbm, ⟨18, _⟩ => ⟨S8x8192x512, .f32⟩
  | .hbm, ⟨19, _⟩ => ⟨S8x8192x512, .f32⟩
  | .hbm, ⟨20, _⟩ => ⟨S8x8192x512, .f32⟩
  | .hbm, ⟨21, _⟩ => ⟨S512x512, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x1, .f32⟩
  | .hbm, ⟨42, _⟩ => ⟨S512x1, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S8x8192x512, .f32⟩
  | .hbm, ⟨56, _⟩ => ⟨S1x1x512, .f32⟩
  | .hbm, ⟨57, _⟩ => ⟨S8x8192x512, .f32⟩
  | .hbm, ⟨58, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_c_7 : Ref sig .tc := ⟨.hbm, 47, rfl⟩
abbrev main_call5_v0 : Ref sig .tc := ⟨.hbm, 48, rfl⟩
abbrev main_call5_v1 : Ref sig .tc := ⟨.hbm, 49, rfl⟩
abbrev main_call5_v2 : Ref sig .tc := ⟨.hbm, 50, rfl⟩
abbrev main_call5_v3 : Ref sig .tc := ⟨.hbm, 51, rfl⟩
abbrev main_call5_v4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩

abbrev nD : Nat := 1
abbrev τ : Topo := Topo.v7x

variable {F : FTy → Type} [FloatOps F]

class Facts₀ : Prop where
  reducesTo_S8x8192x512_S_d0_1_2 : S8x8192x512.ReducesTo [0, 1, 2] S_
  h_S_ : 0 < S_.numel
  bcast_S_S8x8192x512 : S_.BroadcastsInDim S8x8192x512 (![] : Fin 0 → Fin S8x8192x512.rank)
  reducesTo_S512x512_S512_d1 : S512x512.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  shapeCasts_S512x1_S512 : S512x1.ShapeCasts S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S8x8192x512_0_1_2 : S1x1x512.BroadcastsInDim S8x8192x512 (![0, 1, 2] : Fin 3 → Fin S8x8192x512.rank)
  dot_S8x8192x512_S512x512_S8x8192x512_2_1_01_0_n_n_wf : DotDims.WF S8x8192x512 S512x512 S8x8192x512 [2] [1] [0, 1] [0] [] []

variable [Facts₀]

def dot_S8x8192x512_S512x512_S8x8192x512_2_1_01_0_n_n : DotDims S8x8192x512 S512x512 S8x8192x512 where
  lhsContracting := [2]
  rhsContracting := [1]
  lhsNonContracting := [0, 1]
  rhsNonContracting := [0]
  lhsBatch := []
  rhsBatch := []
  wf := dot_S8x8192x512_S512x512_S8x8192x512_2_1_01_0_n_n_wf

class Facts : Prop extends Facts₀ where

variable [Facts]
-- ==== Proof.OnWords.MaxRuns.lean ====
/-
  The first kernel region, part one: the running maximum of |x| over 16 blocks of 4096 rows, kept in a 1×1 scratch
  buffer between grid points. The body has three control paths: at the first point it resets the scratch to zero and
  then folds the block's maximum in; at the middle points it folds only; at the last point it folds and copies the
  scratch to the 1×1 output block. This module decides the two branch conditions over the grid, says where the output
  window is idle, and runs the body once per path, on any staging buffers, at any float instance; the stores each
  buffer ends with are the witness each run finds.
-/
import proofs.«104424_j7687991459869_1_alg».proof.Proof.Gen.Kernel.Launch
import proofs.«104424_j7687991459869_1_alg».proof.Proof.Gen.Kernel.Skeleton
import proofs.«104424_j7687991459869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, over the grid -/

/-- The reset branch's condition, from the grid coordinate. -/
abbrev atFirst (i : grid0.Coords) : Prop := (Scalar.cmpi .ne (Scalar.extui (Scalar.cmpi .eq (BitVec.ofNat 32 (i 0).val) 0#32)) 0#32) = 1#1
/-- It holds at the first point only. -/
theorem atFirst_iff : ∀ t : Fin cfg0.N, atFirst (grid0.coords t) ↔ t.val = 0 :=
  (by decide +kernel : ∀ t : Fin grid0.N, atFirst (grid0.coords t) ↔ t.val = 0)

/-- The copy-out branch's condition. -/
abbrev atLast (i : grid0.Coords) : Prop := k0_cond2 i = 1#1
/-- It holds at the last point only. -/
theorem atLast_iff : ∀ t : Fin cfg0.N, atLast (grid0.coords t) ↔ t.val = 15 :=
  (by decide +kernel : ∀ t : Fin grid0.N, atLast (grid0.coords t) ↔ t.val = 15)

/-! ## Where the windows are idle -/

theorem xLive : ∀ t : Fin cfg0.N, cfg0.idle 0 (grid0.coords t) = false := by decide +kernel
theorem outIdle : ∀ t : Fin cfg0.N, ¬atLast (grid0.coords t) → cfg0.idle 1 (grid0.coords t) = true := by decide +kernel
theorem outNoFlush : ∀ t : Fin cfg0.N, ¬atLast (grid0.coords t) → (cfg0.win 1).flush t = false := by decide +kernel
theorem outLive : ∀ t : Fin cfg0.N, atLast (grid0.coords t) → cfg0.idle 1 (grid0.coords t) = false := by decide +kernel

/-! ## The buffers the body is called with -/

abbrev xBuf (t : Fin cfg0.N) : Memref sig .tc .vmem S4096x512 .f32 := win0_0.stage (cfg0.slots t 0)
abbrev xBufWhole (t : Fin cfg0.N) : (xBuf t).IsWhole := hstage0_0 ((cfg0.slots t 0).cast nbuf0_0)
abbrev outBuf (t : Fin cfg0.N) : Memref sig .tc .vmem S1x1 .f32 := win0_1.stage (cfg0.slots t 1)
abbrev outBufWhole (t : Fin cfg0.N) : (outBuf t).IsWhole := hstage0_1 ((cfg0.slots t 1).cast nbuf0_1)
/-- The scratch holding the running maximum: a whole scoped buffer of the kernel's own. -/
abbrev accBuf : Memref sig .tc .vmem S1x1 .f32 := Memref.whole cc0_scratch0
abbrev accView : View sig .tc .vmem S1x1 .f32 := accBuf.view
abbrev outView : View sig .tc .vmem S1x1 .f32 := (Memref.whole cc0_stg1_0 : Memref sig .tc .vmem S1x1 .f32).view

/-! ## The body's run, path by path -/

set_option maxHeartbeats 1000000 in
/-- FIRST POINT (reset taken, copy-out not taken): the scratch at anything, the output buffer handed back untouched. -/
noncomputable def runFirst (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : atFirst i) (h2 : ¬atLast i)
    (x : Vec F S4096x512 .f32) :
    { LS : List (View.Piece (Elt F) S1x1 .f32) //
      ∀ (o : Vec F S1x1 .f32) (E : Set ℕ) (K : PUnit → sProp 𝕄),
        iprop(owns (c : Thread nD τ) arg1 fullShare x ∗ owns (c : Thread nD τ) arg2 fullShare o ∗ (∃ d, owns (c : Thread nD τ) arg3 fullShare d)
            ∗ (iprop(owns (c : Thread nD τ) arg1 fullShare x ∗ owns (c : Thread nD τ) arg2 fullShare o ∗ (∃ f, arg3.view.loc (c : Thread nD τ) ↦[arg3.view.set]{fullShare} arg3.view.writes (Elt F) f LS)) -∗ K ⟨⟩))
          ⊢ wp frame (wpE (defs₀ (F := F)) Variants.none c none) E (cc0__max_abs_kernel i arg1 harg1 arg2 harg2 arg3 harg3) K } := by
  refine ⟨?_, fun o E K => ?run⟩
  case run =>
    simp only [cc0__max_abs_kernel_eq_skeleton]; unfold cc0__max_abs_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- MIDDLE POINTS (neither branch taken): the scratch at what the point before left. -/
noncomputable def runMid (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : ¬atLast i)
    (x : Vec F S4096x512 .f32) (a : Vec F S1x1 .f32) :
    { LS : List (View.Piece (Elt F) S1x1 .f32) //
      ∀ (o : Vec F S1x1 .f32) (E : Set ℕ) (K : PUnit → sProp 𝕄),
        iprop(owns (c : Thread nD τ) arg1 fullShare x ∗ owns (c : Thread nD τ) arg2 fullShare o ∗ owns (c : Thread nD τ) arg3 fullShare a
            ∗ (iprop(owns (c : Thread nD τ) arg1 fullShare x ∗ owns (c : Thread nD τ) arg2 fullShare o ∗ (∃ f, arg3.view.loc (c : Thread nD τ) ↦[arg3.view.set]{fullShare} arg3.view.writes (Elt F) f LS)) -∗ K ⟨⟩))
          ⊢ wp frame (wpE (defs₀ (F := F)) Variants.none c none) E (cc0__max_abs_kernel i arg1 harg1 arg2 harg2 arg3 harg3) K } := by
  refine ⟨?_, fun o E K => ?run⟩
  case run =>
    simp only [cc0__max_abs_kernel_eq_skeleton]; unfold cc0__max_abs_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT (reset not taken, copy-out taken): the scratch at what the point before left, the output at anything. -/
noncomputable def runLast (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i)
    (x : Vec F S4096x512 .f32) (a : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x ∗ (∃ d, owns (c : Thread nD τ) arg2 fullShare d) ∗ owns (c : Thread nD τ) arg3 fullShare a
            ∗ (iprop(owns (c : Thread nD τ) arg1 fullShare x ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc0__max_abs_kernel i arg1 harg1 arg2 harg2 arg3 harg3) K } := by
  refine ⟨?_, ?_, fun E K => ?run⟩
  case run =>
    simp only [cc0__max_abs_kernel_eq_skeleton]; unfold cc0__max_abs_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact h1 | exact h2)
    sl_step
    iapply Hk
    isplitl [H0]
    · iexists _; isplitr; · ipureintro; exact harg1.read_unread _
      iexact H0
    isplitl [H1]; · iexists _; iexact H1
    iexists _; iexact HS0

end Cert.Kernel.Hand

end
-- ==== Proof.OnWords.MaxRegion.lean ====
/-
  The first kernel region, part two: what the scratch holds after each of the 16 grid points — the fold of the blocks'
  maxima, as the body's runs leave it —, the region's invariant (before the first point the scoped buffers at anything;
  afterwards the scratch at the running maximum so far), the proof data and the body obligation. The output window is
  idle at every point but the last, where the body copies the scratch into it. Stated at any float instance and at any
  contents `V` of the buffers when the region is entered.
-/
import proofs.«104424_j7687991459869_1_alg».proof.Proof.OnWords.MaxRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block the body reads -/

/-- The block of window `w` at grid point `t`, cut out of the window's array as the region finds it. -/
def maxBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window holds its block at every point (it is fetched at each, and the body leaves it in place). -/
theorem maxBefore0_of {c : Dev nD} (dat : Dat τ (Elt F) Unit ℕ (UR sig nD τ) ℕ cfg0 c) (hA : dat.A 0 = V c (Pipeline.arrRef spec0 0))
    (hafter : ∀ t, dat.after 0 t = maxBlock V c 0 t) (t : Fin cfg0.N) (d) : dat.before 0 t d = maxBlock V c 0 t :=
  (dat.before_in_eq_fetched 0 rfl (fun _ => rfl) (fun _ _ _ => rfl) (fun t => by rw [hafter]; unfold Dat.blockOf maxBlock; rw [hA]; try rfl) t d).trans
    (by unfold Dat.fetched Dat.blockOf maxBlock; rw [hA]; try rfl)

/-! ## What the scratch holds after each point -/

theorem notLast_of_zero (t : Fin cfg0.N) (h : t.val = 0) : ¬atLast (grid0.coords t) := fun hl => by
  have := (atLast_iff t).mp hl; omega
theorem notFirst_of_pos (t : Fin cfg0.N) (h : t.val ≠ 0) : ¬atFirst (grid0.coords t) := fun hf => h ((atFirst_iff t).mp hf)
theorem notLast_of_ne (t : Fin cfg0.N) (h : t.val ≠ 15) : ¬atLast (grid0.coords t) := fun hl => h ((atLast_iff t).mp hl)

/-- THE ACCUMULATION: the scratch after the body at position `n` — the path the conditions select there, run on the
    point's buffers and block, from what the point before left. -/
def accAt (c : Dev nD) : (n : ℕ) → n < cfg0.N → Vec F S1x1 .f32
  | 0, hn => accView.read (Elt F) (accView.writes (Elt F) accView.junk
      (runFirst c (grid0.coords ⟨0, hn⟩) (xBuf ⟨0, hn⟩) (xBufWhole ⟨0, hn⟩) (outBuf ⟨0, hn⟩) (outBufWhole ⟨0, hn⟩) accBuf (Memref.isWhole_whole _) ((atFirst_iff ⟨0, hn⟩).mpr rfl) (notLast_of_zero ⟨0, hn⟩ rfl) (maxBlock V c 0 ⟨0, hn⟩)).1)
  | n + 1, hn =>
    if hl : n + 1 = 15 then
      accView.read (Elt F) (accView.writes (Elt F) accView.junk
        (runLast c (grid0.coords ⟨n + 1, hn⟩) (xBuf ⟨n + 1, hn⟩) (xBufWhole ⟨n + 1, hn⟩) (outBuf ⟨n + 1, hn⟩) (outBufWhole ⟨n + 1, hn⟩) accBuf (Memref.isWhole_whole _) (notFirst_of_pos ⟨n + 1, hn⟩ (Nat.succ_ne_zero n)) ((atLast_iff ⟨n + 1, hn⟩).mpr hl)
          (maxBlock V c 0 ⟨n + 1, hn⟩) (accAt c n (Nat.lt_of_succ_lt hn))).2.1)
    else
      accView.read (Elt F) (accView.writes (Elt F) accView.junk
        (runMid c (grid0.coords ⟨n + 1, hn⟩) (xBuf ⟨n + 1, hn⟩) (xBufWhole ⟨n + 1, hn⟩) (outBuf ⟨n + 1, hn⟩) (outBufWhole ⟨n + 1, hn⟩) accBuf (Memref.isWhole_whole _) (notFirst_of_pos ⟨n + 1, hn⟩ (Nat.succ_ne_zero n)) (notLast_of_ne ⟨n + 1, hn⟩ hl)
          (maxBlock V c 0 ⟨n + 1, hn⟩) (accAt c n (Nat.lt_of_succ_lt hn))).1)

/-- The output buffer after the body at the last point: the copy of the scratch; elsewhere a placeholder nothing reads
    (the window is idle there and not written back). -/
def outAt (c : Dev nD) (t : Fin cfg0.N) : Vec F S1x1 .f32 :=
  if hl : t.val = 15 then
    outView.read (Elt F) (outView.writes (Elt F) outView.junk
      (runLast c (grid0.coords t) (xBuf t) (xBufWhole t) (outBuf t) (outBufWhole t) accBuf (Memref.isWhole_whole _) (notFirst_of_pos t (by omega)) ((atLast_iff t).mpr hl)
        (maxBlock V c 0 t) (accAt V c (t.val - 1) (Nat.lt_of_le_of_lt (Nat.sub_le _ _) t.isLt))).1)
  else outView.read (Elt F) outView.junk

theorem accAt_first (c : Dev nD) (t : Fin cfg0.N) (h0 : t.val = 0) :
    accAt V c t.val t.isLt = accView.read (Elt F) (accView.writes (Elt F) accView.junk
      (runFirst c (grid0.coords t) (xBuf t) (xBufWhole t) (outBuf t) (outBufWhole t) accBuf (Memref.isWhole_whole _) ((atFirst_iff t).mpr h0) (notLast_of_zero t h0) (maxBlock V c 0 t)).1) := by
  obtain ⟨n, hn⟩ := t
  cases n with
  | zero => rfl
  | succ n => exact absurd h0 (Nat.succ_ne_zero n)

theorem accAt_mid (c : Dev nD) (t : Fin cfg0.N) (h0 : t.val ≠ 0) (hl : t.val ≠ 15) :
    accAt V c t.val t.isLt = accView.read (Elt F) (accView.writes (Elt F) accView.junk
      (runMid c (grid0.coords t) (xBuf t) (xBufWhole t) (outBuf t) (outBufWhole t) accBuf (Memref.isWhole_whole _) (notFirst_of_pos t h0) (notLast_of_ne t hl)
        (maxBlock V c 0 t) (accAt V c (t.val - 1) (Nat.lt_of_le_of_lt (Nat.sub_le _ _) t.isLt))).1) := by
  obtain ⟨n, hn⟩ := t
  cases n with
  | zero => exact absurd rfl h0
  | succ n => exact (dif_neg hl).trans rfl

theorem accAt_last (c : Dev nD) (t : Fin cfg0.N) (h0 : t.val ≠ 0) (hl : t.val = 15) :
    accAt V c t.val t.isLt = accView.read (Elt F) (accView.writes (Elt F) accView.junk
      (runLast c (grid0.coords t) (xBuf t) (xBufWhole t) (outBuf t) (outBufWhole t) accBuf (Memref.isWhole_whole _) (notFirst_of_pos t h0) ((atLast_iff t).mpr hl)
        (maxBlock V c 0 t) (accAt V c (t.val - 1) (Nat.lt_of_le_of_lt (Nat.sub_le _ _) t.isLt))).2.1) := by
  obtain ⟨n, hn⟩ := t
  cases n with
  | zero => exact absurd rfl h0
  | succ n => exact (dif_pos hl).trans rfl

theorem outAt_last (c : Dev nD) (t : Fin cfg0.N) (h0 : t.val ≠ 0) (hl : t.val = 15) :
    outAt V c t = outView.read (Elt F) (outView.writes (Elt F) outView.junk
      (runLast c (grid0.coords t) (xBuf t) (xBufWhole t) (outBuf t) (outBufWhole t) accBuf (Memref.isWhole_whole _) (notFirst_of_pos t h0) ((atLast_iff t).mpr hl)
        (maxBlock V c 0 t) (accAt V c (t.val - 1) (Nat.lt_of_le_of_lt (Nat.sub_le _ _) t.isLt))).1) := by
  unfold outAt; exact (dif_pos hl).trans rfl

/-! ## The stores of each path cover the 1×1 buffers -/

theorem coverFirst (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : atFirst i) (h2 : ¬atLast i)
    (x : Vec F S4096x512 .f32) (y : S1x1.Idx) : ∃ pc ∈ (runFirst c i arg1 harg1 arg2 harg2 arg3 harg3 h1 h2 x).1, y ∈ pc.1.set :=
  View.cover_of_tiledL (runFirst c i arg1 harg1 arg2 harg2 arg3 harg3 h1 h2 x).1 S1x1.size (by sl_kernel_rfl) y

theorem coverMid (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : ¬atLast i)
    (x : Vec F S4096x512 .f32) (a : Vec F S1x1 .f32) (y : S1x1.Idx) : ∃ pc ∈ (runMid c i arg1 harg1 arg2 harg2 arg3 harg3 h1 h2 x a).1, y ∈ pc.1.set :=
  View.cover_of_tiledL (runMid c i arg1 harg1 arg2 harg2 arg3 harg3 h1 h2 x a).1 S1x1.size (by sl_kernel_rfl) y

theorem coverLastAcc (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i)
    (x : Vec F S4096x512 .f32) (a : Vec F S1x1 .f32) (y : S1x1.Idx) : ∃ pc ∈ (runLast c i arg1 harg1 arg2 harg2 arg3 harg3 h1 h2 x a).2.1, y ∈ pc.1.set :=
  View.cover_of_tiledL (runLast c i arg1 harg1 arg2 harg2 arg3 harg3 h1 h2 x a).2.1 S1x1.size (by sl_kernel_rfl) y

theorem coverLastOut (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i)
    (x : Vec F S4096x512 .f32) (a : Vec F S1x1 .f32) (y : S1x1.Idx) : ∃ pc ∈ (runLast c i arg1 harg1 arg2 harg2 arg3 harg3 h1 h2 x a).1, y ∈ pc.1.set :=
  View.cover_of_tiledL (runLast c i arg1 harg1 arg2 harg2 arg3 harg3 h1 h2 x a).1 S1x1.size (by sl_kernel_rfl) y

/-! ## The region's invariant -/

/-- The core's scoped buffers other than this region's staging buffers and the scratch (the second region's staging
    buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scoped rest of the region: the scratch at some contents beside the other scoped buffers. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) accBuf fullShare d) ∗ otherScoped c) := by
  rw [scopedRest0_eq]; unfold otherScoped; simp only [accBuf, owns_whole]; try rfl

/-- Before position `n`: at the start the scoped rest at anything; afterwards the scratch at what the point before left. -/
def maxInv (c : Dev nD) : (n : ℕ) → n ≤ cfg0.N → sProp 𝕄
  | 0, _ => Pipeline.ΦA spec0 c
  | n + 1, hn => iprop(iprop(owns (c : Thread nD τ) accBuf fullShare (accAt V c n hn) ∗ otherScoped c) ∗ (∃ r, prngReg c r))

theorem maxInv_zero (c : Dev nD) (n : ℕ) (h : n ≤ cfg0.N) (hz : n = 0) : maxInv V c n h = Pipeline.ΦA spec0 c := by
  subst hz; rfl

theorem maxInv_succ (c : Dev nD) (n : ℕ) (hn : n < cfg0.N) :
    maxInv V c (n + 1) hn = iprop(iprop(owns (c : Thread nD τ) accBuf fullShare (accAt V c n hn) ∗ otherScoped c) ∗ (∃ r, prngReg c r)) := rfl

theorem maxInv_pos (c : Dev nD) (n : ℕ) (h : n ≤ cfg0.N) (hz : n ≠ 0) :
    maxInv V c n h = iprop(iprop(owns (c : Thread nD τ) accBuf fullShare (accAt V c (n - 1) (by omega)) ∗ otherScoped c) ∗ (∃ r, prngReg c r)) := by
  cases n with
  | zero => exact absurd rfl hz
  | succ n => rfl

theorem classInv_split (c : Dev nD) :
    (Pipeline.ΦA spec0 c : sProp 𝕄) = iprop(iprop((∃ d, owns (c : Thread nD τ) accBuf fullShare d) ∗ otherScoped c) ∗ (∃ r, prngReg c r)) := by
  unfold Pipeline.ΦA; rw [scopedRest_split]

/-! ## The proof data -/

def maxDat (c : Dev nD) : Dat τ (Elt F) Unit ℕ (UR sig nD τ) ℕ cfg0 c where
  A w := V c (Pipeline.arrRef spec0 w)
  after w t := match w with
    | ⟨0, _⟩ => maxBlock V c 0 t
    | ⟨1, _⟩ => outAt V c t
  Φ t := maxInv V c t.val (Nat.le_of_lt_succ t.isLt)
  q _ := fullShare
  owed _ := 0

theorem maxA (c : Dev nD) (w : Fin cfg0.W) : (maxDat V c).A w = V c (Pipeline.arrRef spec0 w) := by
  dsimp only [maxDat]

theorem maxInv_castSucc (c : Dev nD) (t : Fin cfg0.N) :
    (maxDat V c).Φ t.castSucc = maxInv V c t.val (Nat.le_of_lt t.isLt) := by
  dsimp only [maxDat]; simp only [Fin.coe_castSucc]

theorem maxAfter0 (c : Dev nD) (t : Fin cfg0.N) : (maxDat V c).after 0 t = maxBlock V c 0 t := by dsimp only [maxDat]
theorem maxAfter1 (c : Dev nD) (t : Fin cfg0.N) : (maxDat V c).after 1 t = outAt V c t := by dsimp only [maxDat]

theorem maxBefore0 (c : Dev nD) (t : Fin cfg0.N) (d) : (maxDat V c).before 0 t d = maxBlock V c 0 t :=
  maxBefore0_of V (maxDat V c) (maxA V c 0) (maxAfter0 V c) t d

/-! ## The body obligation -/

def maxPre (c : Dev nD) (t : Fin cfg0.N) : sProp 𝕄 :=
  iprop((maxDat V c).Φ t.castSucc ∗ (maxDat V c).owesAt () t.castSucc
    ∗ (∃ d, owns (c : Thread nD τ) (xBuf t) fullShare ((maxDat V c).before 0 t d))
    ∗ (∃ d, owns (c : Thread nD τ) (outBuf t) fullShare ((maxDat V c).before 1 t d)))

def maxPost (c : Dev nD) (t : Fin cfg0.N) : sProp 𝕄 :=
  iprop((maxDat V c).Φ t.succ ∗ (maxDat V c).owesAt () t.succ
    ∗ (maxDat V c).leavesExact 0 t
    ∗ (maxDat V c).leavesExact 1 t)

set_option maxHeartbeats 4800000 in
/-- The body at any point. The conditions' closed forms say which path the point takes; the invariant hands the body the
    scratch at what the point before left (at anything at the first point) and takes it back at this point's contents. -/
theorem maxBody (c : Dev nD) (t : Fin cfg0.N) :
    maxPre V c t ⊢ wp frame (wpE (defs₀ (F := F)) Variants.none c none) Set.univ (bodyAt0 t) (fun _ => maxPost V c t) := by
  unfold maxPre maxPost bodyAt0
  simp only [maxBefore0]
  rw [show (maxDat V c).owesAt () t.succ = (maxDat V c).owesAt () t.castSucc from rfl]
  rw [show (maxDat V c).Φ t.succ = maxInv V c (t.val + 1) t.isLt from rfl, maxInv_succ]
  rw [show (maxDat V c).leavesExact 0 t = owns (c : Thread nD τ) (xBuf t) fullShare ((maxDat V c).after 0 t) from by
    unfold Dat.leavesExact; rw [xLive t], maxAfter0]
  have hN : t.val < 16 := lt_of_lt_of_eq t.isLt (show cfg0.N = 16 from N_0)
  by_cases h0 : t.val = 0
  · -- the first point
    have hnl := notLast_of_zero t h0
    rw [Dat.leavesExact_idle (maxDat V c) 1 t (outIdle t hnl) (outNoFlush t hnl)]
    rw [accAt_first V c t h0]
    rw [maxInv_castSucc V c t, maxInv_zero V c _ _ h0, classInv_split]
    iintro ⟨⟨⟨HS0, Hr⟩, Hg⟩, Ho, ⟨%d0, H0⟩, ⟨%d1, H1⟩⟩
    iapply ((runFirst c (grid0.coords t) _ _ _ _ _ _ ((atFirst_iff t).mpr h0) hnl (maxBlock V c 0 t)).2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (coverFirst c _ _ _ _ _ _ _ _ _ _)
        iexact Hr
      iexact Hg
    isplitl [Ho]; · iexact Ho
    isplitl [H0]; · iexact H0
    iexists _; iexact H1
  · by_cases hl : t.val = 15
    · -- the last point
      rw [show (maxDat V c).leavesExact 1 t = owns (c : Thread nD τ) (outBuf t) fullShare ((maxDat V c).after 1 t) from by
        unfold Dat.leavesExact; rw [outLive t ((atLast_iff t).mpr hl)], maxAfter1]
      rw [accAt_last V c t h0 hl, outAt_last V c t h0 hl]
      rw [maxInv_castSucc V c t, maxInv_pos V c _ _ h0]
      iintro ⟨⟨⟨HS0, Hr⟩, Hg⟩, Ho, ⟨%d0, H0⟩, ⟨%d1, H1⟩⟩
      iapply ((runLast c (grid0.coords t) _ _ _ _ _ _ (notFirst_of_pos t h0) ((atLast_iff t).mpr hl) (maxBlock V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverLastAcc c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (coverLastOut c _ _ _ _ _ _ _ _ _ _ _)
    · -- a middle point
      have hnl := notLast_of_ne t hl
      rw [Dat.leavesExact_idle (maxDat V c) 1 t (outIdle t hnl) (outNoFlush t hnl)]
      rw [accAt_mid V c t h0 hl]
      rw [maxInv_castSucc V c t, maxInv_pos V c _ _ h0]
      iintro ⟨⟨⟨HS0, Hr⟩, Hg⟩, Ho, ⟨%d0, H0⟩, ⟨%d1, H1⟩⟩
      iapply ((runMid c (grid0.coords t) _ _ _ _ _ _ (notFirst_of_pos t h0) hnl (maxBlock V c 0 t) _).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverMid c _ _ _ _ _ _ _ _ _ _ _)
          iexact Hr
        iexact Hg
      isplitl [Ho]; · iexact Ho
      isplitl [H0]; · iexact H0
      iexists _; iexact H1

theorem maxObligation (c : Dev nD) : BodyObligation (maxDat (F := F) V c) (defs₀ (F := F)) Variants.none () Set.univ := fun t => by
  rw [bigSep_W0, bigSep_W0]
  exact maxBody V c t

/-! ## In and out of the invariant -/

theorem maxIn (c : Dev nD) : Pipeline.ΦA spec0 c ⊢ (maxDat V c).Φ 0 := by
  rw [show (maxDat V c).Φ 0 = maxInv V c 0 (Nat.zero_le _) from rfl, maxInv_zero V c 0 _ rfl]
  try exact Idealize.SL.BI.Entails.refl _

/-- After the last point the invariant gives the scoped rest back, the scratch's contents forgotten. -/
theorem maxOut (c : Dev nD) : (maxDat V c).Φ (Fin.last cfg0.N) ⊢ Pipeline.ΦA spec0 c := by
  rw [show (maxDat V c).Φ (Fin.last cfg0.N) = maxInv V c (Fin.last cfg0.N).val (Nat.le_of_lt_succ (Fin.last cfg0.N).isLt) from rfl,
    maxInv_pos V c _ _ (by rw [Fin.val_last]; have : cfg0.N = 16 := N_0; omega), classInv_split]
  iintro ⟨⟨HS0, Hr⟩, Hg⟩
  isplitl [HS0 Hr]
  · isplitl [HS0]
    · iexists _; iexact HS0
    iexact Hr
  iexact Hg

end Cert.Kernel.Hand

end
-- ==== Proof.OnWords.LinearRegion.lean ====
/-
  The second kernel region: the fused quantise–matmul–bias body, one block of 2048 rows of the activations at a
  grid point. The body reads the activation block, the (transposed, quantised) weight matrix, the quantised bias
  row and the 1×1 activation scale, and stores ONE value into the output block: every output entry is a function
  of the four input blocks only, so the region is a map over the 32 row blocks. Stated at any float instance.
-/
import proofs.«104424_j7687991459869_1_alg».proof.Proof.Gen.Kernel.Launch
import proofs.«104424_j7687991459869_1_alg».proof.Proof.Gen.Kernel.Skeleton
import proofs.«104424_j7687991459869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks the body reads -/

/-- The block of window `w` at grid point `t`, cut out of the window's array as the region finds it. -/
def linBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose block the body leaves in place holds that block at every point, whether the pipeline
    fetched it there or kept the previous point's (the block index had not moved): one statement per input window. -/
theorem linBefore0_of {c : Dev nD} (dat : Dat τ (Elt F) Unit ℕ (UR sig nD τ) ℕ cfg1 c) (hA : dat.A 0 = V c (Pipeline.arrRef spec1 0))
    (hafter : ∀ t, dat.after 0 t = linBlock V c 0 t) (t : Fin cfg1.N) (d) : dat.before 0 t d = linBlock V c 0 t :=
  (dat.before_in_eq_fetched 0 rfl (fun _ => rfl) (fun _ _ _ => rfl) (fun t => by rw [hafter]; unfold Dat.blockOf linBlock; rw [hA]; try rfl) t d).trans
    (by unfold Dat.fetched Dat.blockOf linBlock; rw [hA]; try rfl)
theorem linBefore1_of {c : Dev nD} (dat : Dat τ (Elt F) Unit ℕ (UR sig nD τ) ℕ cfg1 c) (hA : dat.A 1 = V c (Pipeline.arrRef spec1 1))
    (hafter : ∀ t, dat.after 1 t = linBlock V c 1 t) (t : Fin cfg1.N) (d) : dat.before 1 t d = linBlock V c 1 t :=
  (dat.before_in_eq_fetched 1 rfl (fun _ => rfl) (fun _ _ _ => rfl) (fun t => by rw [hafter]; unfold Dat.blockOf linBlock; rw [hA]; try rfl) t d).trans
    (by unfold Dat.fetched Dat.blockOf linBlock; rw [hA]; try rfl)
theorem linBefore2_of {c : Dev nD} (dat : Dat τ (Elt F) Unit ℕ (UR sig nD τ) ℕ cfg1 c) (hA : dat.A 2 = V c (Pipeline.arrRef spec1 2))
    (hafter : ∀ t, dat.after 2 t = linBlock V c 2 t) (t : Fin cfg1.N) (d) : dat.before 2 t d = linBlock V c 2 t :=
  (dat.before_in_eq_fetched 2 rfl (fun _ => rfl) (fun _ _ _ => rfl) (fun t => by rw [hafter]; unfold Dat.blockOf linBlock; rw [hA]; try rfl) t d).trans
    (by unfold Dat.fetched Dat.blockOf linBlock; rw [hA]; try rfl)
theorem linBefore3_of {c : Dev nD} (dat : Dat τ (Elt F) Unit ℕ (UR sig nD τ) ℕ cfg1 c) (hA : dat.A 3 = V c (Pipeline.arrRef spec1 3))
    (hafter : ∀ t, dat.after 3 t = linBlock V c 3 t) (t : Fin cfg1.N) (d) : dat.before 3 t d = linBlock V c 3 t :=
  (dat.before_in_eq_fetched 3 rfl (fun _ => rfl) (fun _ _ _ => rfl) (fun t => by rw [hafter]; unfold Dat.blockOf linBlock; rw [hA]; try rfl) t d).trans
    (by unfold Dat.fetched Dat.blockOf linBlock; rw [hA]; try rfl)

/-! ## What the body stores -/

abbrev rX : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rS : Rect S1x1 := Rect.unit (s := S1x1) ![0, 0] S1x1.size inb_S1x1_S1x1_0_0

/-- The output block after the body: its one store, of the body's arithmetic on the four input blocks. -/
def linOut (x : Vec F S2048x512 .f32) (w : Vec F S512x512 .bf16) (b : Vec F S1x512 .f32) (s : Vec F S1x1 .f32) : Vec F S2048x512 .f32 :=
  View.canon [⟨rX, k1_pay1 (View.ld s rS) (View.ld x rX) (View.ld w rW) (View.ld b rB)⟩]

/-- The one store covers the whole block. -/
theorem linCover (p0 : Vec F S2048x512 .f32) (y : S2048x512.Idx) :
    ∃ pc ∈ ([⟨rX, p0⟩] : List (View.Piece (Elt F) S2048x512 .f32)), y ∈ pc.1.set :=
  View.cover_of_tiled [⟨rX, p0⟩] S2048x512.size (by rfl) y

/-! ## The body's run -/

set_option maxHeartbeats 1000000 in
/-- On whole staging buffers, the inputs' at read contents and the output's at anything, the body runs to the
    continuation with the inputs as they were and the output at `linOut` of them. -/
theorem linRuns (c : Dev nD) (E : Set ℕ) (i : grid1.Coords)
    (arg1 : Memref sig .tc .vmem S2048x512 .f32) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x1 .f32) (harg4 : arg4.IsWhole)
    (arg5 : Memref sig .tc .vmem S2048x512 .f32) (harg5 : arg5.IsWhole)
    (x : Vec F S2048x512 .f32) (w : Vec F S512x512 .bf16) (b : Vec F S1x512 .f32) (s : Vec F S1x1 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare s ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare s ∗ owns (c : Thread nD τ) arg5 fullShare (linOut x w b s)) -∗ K ⟨⟩))
      ⊢ wp frame (wpE (defs₀ (F := F)) Variants.none c none) E (cc1__quant_linear_kernel i arg1 harg1 arg2 harg2 arg3 harg3 arg4 harg4 arg5 harg5) K := by
  simp only [cc1__quant_linear_kernel_eq_skeleton]; unfold cc1__quant_linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (linCover _)

/-! ## The proof data of the region -/

/-- The region's proof data on core `c`: the arrays as found; after the body each input buffer at its block, the
    output buffer at `linOut` of the four blocks; the scoped rest and the generator register untouched; nothing owed. -/
def linDat (c : Dev nD) : Dat τ (Elt F) Unit ℕ (UR sig nD τ) ℕ cfg1 c where
  A w := V c (Pipeline.arrRef spec1 w)
  after w t := match w with
    | ⟨0, _⟩ => linBlock V c 0 t
    | ⟨1, _⟩ => linBlock V c 1 t
    | ⟨2, _⟩ => linBlock V c 2 t
    | ⟨3, _⟩ => linBlock V c 3 t
    | ⟨4, _⟩ => linOut (linBlock V c 0 t) (linBlock V c 1 t) (linBlock V c 2 t) (linBlock V c 3 t)
  Φ _ := Pipeline.ΦA spec1 c
  q _ := fullShare
  owed _ := 0

theorem linA (c : Dev nD) (w : Fin cfg1.W) : (linDat V c).A w = V c (Pipeline.arrRef spec1 w) := by
  dsimp only [linDat]

theorem linAfter0 (c : Dev nD) (t : Fin cfg1.N) : (linDat V c).after 0 t = linBlock V c 0 t := by dsimp only [linDat]
theorem linAfter1 (c : Dev nD) (t : Fin cfg1.N) : (linDat V c).after 1 t = linBlock V c 1 t := by dsimp only [linDat]
theorem linAfter2 (c : Dev nD) (t : Fin cfg1.N) : (linDat V c).after 2 t = linBlock V c 2 t := by dsimp only [linDat]
theorem linAfter3 (c : Dev nD) (t : Fin cfg1.N) : (linDat V c).after 3 t = linBlock V c 3 t := by dsimp only [linDat]
theorem linAfter4 (c : Dev nD) (t : Fin cfg1.N) :
    (linDat V c).after 4 t = linOut (linBlock V c 0 t) (linBlock V c 1 t) (linBlock V c 2 t) (linBlock V c 3 t) := by dsimp only [linDat]

theorem linBefore0 (c : Dev nD) (t : Fin cfg1.N) (d) : (linDat V c).before 0 t d = linBlock V c 0 t :=
  linBefore0_of V (linDat V c) (linA V c 0) (linAfter0 V c) t d
theorem linBefore1 (c : Dev nD) (t : Fin cfg1.N) (d) : (linDat V c).before 1 t d = linBlock V c 1 t :=
  linBefore1_of V (linDat V c) (linA V c 1) (linAfter1 V c) t d
theorem linBefore2 (c : Dev nD) (t : Fin cfg1.N) (d) : (linDat V c).before 2 t d = linBlock V c 2 t :=
  linBefore2_of V (linDat V c) (linA V c 2) (linAfter2 V c) t d
theorem linBefore3 (c : Dev nD) (t : Fin cfg1.N) (d) : (linDat V c).before 3 t d = linBlock V c 3 t :=
  linBefore3_of V (linDat V c) (linA V c 3) (linAfter3 V c) t d

/-! ## The body obligation -/

def linPre (c : Dev nD) (t : Fin cfg1.N) : sProp 𝕄 :=
  iprop((linDat V c).Φ t.castSucc ∗ (linDat V c).owesAt () t.castSucc
    ∗ (∃ d, owns (c : Thread nD τ) (st1_0 t) fullShare ((linDat V c).before 0 t d))
    ∗ (∃ d, owns (c : Thread nD τ) (st1_1 t) fullShare ((linDat V c).before 1 t d))
    ∗ (∃ d, owns (c : Thread nD τ) (st1_2 t) fullShare ((linDat V c).before 2 t d))
    ∗ (∃ d, owns (c : Thread nD τ) (st1_3 t) fullShare ((linDat V c).before 3 t d))
    ∗ (∃ d, owns (c : Thread nD τ) (st1_4 t) fullShare ((linDat V c).before 4 t d)))

def linPost (c : Dev nD) (t : Fin cfg1.N) : sProp 𝕄 :=
  iprop((linDat V c).Φ t.succ ∗ (linDat V c).owesAt () t.succ
    ∗ owns (c : Thread nD τ) (st1_0 t) fullShare ((linDat V c).after 0 t)
    ∗ owns (c : Thread nD τ) (st1_1 t) fullShare ((linDat V c).after 1 t)
    ∗ owns (c : Thread nD τ) (st1_2 t) fullShare ((linDat V c).after 2 t)
    ∗ owns (c : Thread nD τ) (st1_3 t) fullShare ((linDat V c).after 3 t)
    ∗ owns (c : Thread nD τ) (st1_4 t) fullShare ((linDat V c).after 4 t))

/-- The body at any point: the inputs' buffers hold their blocks, the invariant and the core's dues pass through. -/
theorem linBody (c : Dev nD) (t : Fin cfg1.N) :
    linPre V c t ⊢ wp frame (wpE (defs₀ (F := F)) Variants.none c none) Set.univ (bodyAt1 t) (fun _ => linPost V c t) := by
  unfold linPre linPost bodyAt1
  simp only [linBefore0, linBefore1, linBefore2, linBefore3]
  rw [show (linDat V c).Φ t.succ = (linDat V c).Φ t.castSucc from rfl,
    show (linDat V c).owesAt () t.succ = (linDat V c).owesAt () t.castSucc from rfl,
    linAfter0, linAfter1, linAfter2, linAfter3, linAfter4]
  iintro ⟨HΦ, Ho, ⟨%d0, H0⟩, ⟨%d1, H1⟩, ⟨%d2, H2⟩, ⟨%d3, H3⟩, ⟨%d4, H4⟩⟩
  iapply (linRuns c Set.univ _ _ _ _ _ _ _ _ _ _ _ (linBlock V c 0 t) (linBlock V c 1 t) (linBlock V c 2 t) (linBlock V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem linObligation (c : Dev nD) : BodyObligation (linDat (F := F) V c) (defs₀ (F := F)) Variants.none () Set.univ := fun t => by
  rw [bigSep_W1, bigSep_W1]
  exact linBody V c t

end Cert.Kernel.Hand

end
-- ==== Proof.OnWords.Run.lean ====
/-
  The whole run of @main: thirteen segments — the reshape of the activations, the max-reduction region, nine stretches
  of host operations (the scale, the weight and bias quantisation), the fused matmul region, the final reshape — with
  the contents of every unscoped buffer named at each boundary: a host stretch applies its operations; a region leaves
  each of its arrays at what its write-backs make of it and every other buffer alone. The run ends with every unscoped
  buffer at the last boundary's contents; no segment writes an argument. Stated at any float instance.
-/
import proofs.«104424_j7687991459869_1_alg».proof.Proof.OnWords.MaxRegion
import proofs.«104424_j7687991459869_1_alg».proof.Proof.OnWords.LinearRegion
import proofs.«104424_j7687991459869_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
/-- The same read at the TensorCore's references: what the first region's proof data take. -/
abbrev V1 : (c : Dev nD) → (b : Ref sig .tc) → Buf (Elt F) ((c : Thread nD τ).loc b) := fun c b => W1 m c b
/-- After the max-reduction region: its arrays at what the pipeline leaves, every other buffer as entered. -/
def W2 (c : Dev nD) : Valuation τ sig (Elt F) :=
  Pipeline.withArrays spec0 c (W1 m c) fun w => (maxDat (V1 m) c).arrAt w cfg0.N
theorem W2_arr (c : Dev nD) (w : Fin cfg0.W) :
    W2 m c (Proc.devRef .tc (Pipeline.arrRef spec0 w)) = (maxDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (maxDat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
abbrev W10 : Dev nD → Valuation τ sig (Elt F) := fun c => StableHlo.after hostOps1_7 (W9 m c)
abbrev W11 : Dev nD → Valuation τ sig (Elt F) := fun c => StableHlo.after hostOps1_8 (W10 m c)
/-- What the fused matmul region's proof data take. -/
abbrev V11 : (c : Dev nD) → (b : Ref sig .tc) → Buf (Elt F) ((c : Thread nD τ).loc b) := fun c b => W11 m c b
/-- After the fused matmul region. -/
def W12 (c : Dev nD) : Valuation τ sig (Elt F) :=
  Pipeline.withArrays spec1 c (W11 m c) fun w => (linDat (V11 m) c).arrAt w cfg1.N
theorem W12_arr (c : Dev nD) (w : Fin cfg1.W) :
    W12 m c (Proc.devRef .tc (Pipeline.arrRef spec1 w)) = (linDat (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev V12 : (c : Dev nD) → (b : Ref sig .tc) → Buf (Elt F) ((c : Thread nD τ).loc b) := fun c b => W12 m c b
theorem exit1_arr (c : Dev nD) (w : Fin cfg1.W) : (linDat (V11 m) c).arrAt w cfg1.N = V12 m c (Pipeline.arrRef spec1 w) :=
  (W12_arr m c w).symm
theorem exit1_rest (c : Dev nD) : ∀ b, b ∉ Finset.univ.image (Pipeline.arrRef spec1) → V12 m c b = V11 m c b :=
  fun b hb => W12_of_ne m c b fun w e => hb (Finset.mem_image.mpr ⟨w, Finset.mem_univ _, e⟩)
abbrev W13 : Dev nD → Valuation τ sig (Elt F) := fun c => StableHlo.after hostOps2 (W12 m c)

/-- A buffer that no host stretch writes and that is no array of either region ends as launched. -/
theorem W13_kept (c : Dev nD) (r : Ref sig .tc) (h0 : r ∉ hostOps0_W) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) (h8 : r ∉ hostOps1_7_W)
    (h9 : r ∉ hostOps1_8_W) (h10 : r ∉ hostOps2_W) (ha0 : ∀ w, Pipeline.arrRef spec0 w ≠ r) (ha1 : ∀ w, Pipeline.arrRef spec1 w ≠ r) :
    W13 m c (Proc.devRef .tc r) = m ((c : Thread nD τ).loc r) :=
  (StableHlo.after_of_writes_sub hostOps2 _ hostOps2_writes h10).trans <| (W12_of_ne m c r ha1).trans <|
  (StableHlo.after_of_writes_sub hostOps1_8 _ hostOps1_8_writes h9).trans <|
  (StableHlo.after_of_writes_sub hostOps1_7 _ hostOps1_7_writes h8).trans <|
  (StableHlo.after_of_writes_sub hostOps1_6 _ hostOps1_6_writes h7).trans <|
  (StableHlo.after_of_writes_sub hostOps1_5 _ hostOps1_5_writes h6).trans <|
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (W2_of_ne m c r ha0).trans <| (StableHlo.after_of_writes_sub hostOps0 _ hostOps0_writes h0).trans rfl

theorem W13_main_arg0 (c : Dev nD) : W13 m c (Proc.devRef .tc main_arg0) = m ((c : Thread nD τ).loc main_arg0) :=
  W13_kept m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_kept m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_kept m c main_arg2 (by decide) (by decide) (by decide) (by decide) (by decide) (by decide) (by decide) (by decide) (by decide) (by decide) (by decide) (by decide) (by decide)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => maxDat (V1 m) c
  | ⟨1, _⟩ => fun c => linDat (V11 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- The max-reduction region: entered from every unscoped buffer at `W1`, left at `W2`. The generator register and the
    scoped rest enter the region's invariant and come back out of it after the last point. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (maxObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (maxIn (V1 m) c)
    unfold Pipeline.ΦA
    iintro ⟨Hp, -, Hr⟩
    isplitl [Hr]; · iexact Hr
    iexact Hp
  hout c := by
    rw [Pipeline.ownSems0_none]
    refine BIBase.Entails.trans (maxOut (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused matmul region: entered from every unscoped buffer at `W11`, left at `W12`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (linObligation (V11 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .host (hseg hostOps1_8 hostOps1_8_sub hostOps1_8_fresh (W10 m)),
    .region (reg1 m),
    .host (hseg hostOps2 hostOps2_sub hostOps2_fresh (W12 m)) ]

/-- @main is the run of the segments. -/
theorem main_run (c : Dev nD) : main (F := F) c = Pipeline.Seg.run (segs m) :=
  (main_chain c).trans (by rw [Pipeline.Seg.run_eq_chain]; rfl)

set_option backward.isDefEq.respectTransparency.types false in
/-- THE RUN: every weakly fair execution of @main terminates, nothing faulting, with every unscoped buffer of every
    core at the last boundary's contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W13 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(StableHlo.held (c : Thread nD τ) (Pipeline.ucRefs τ sig) (W13 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c b hb => h c _ (mem_uc b hb))

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (by decide)).trans (W13_main_arg0 m c),
    (h c main_arg1 (by decide)).trans (W13_main_arg1 m c), (h c main_arg2 (by decide)).trans (W13_main_arg2 m c)⟩) (run m ρ)

end Cert.Kernel.Hand

end
-- ==== Proof.OnIdeal.MaxRuns.lean ====
/-
  The first kernel region, part one: the running maximum of |x| over 16 blocks of 4096 rows, kept in a 1×1 scratch
  buffer between grid points. The body has three control paths: at the first point it resets the scratch to zero and
  then folds the block's maximum in; at the middle points it folds only; at the last point it folds and copies the
  scratch to the 1×1 output block. This module decides the two branch conditions over the grid, says where the output
  window is idle, and runs the body once per path, on any staging buffers, at any float instance; the stores each
  buffer ends with are the witness each run finds.
-/
import proofs.«104424_j7687991459869_1_alg».proof.Proof.Gen.KernelIdeal.Launch
import proofs.«104424_j7687991459869_1_alg».proof.Proof.Gen.KernelIdeal.Skeleton
import proofs.«104424_j7687991459869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, over the grid -/

/-- The reset branch's condition, from the grid coordinate. -/
abbrev atFirst (i : grid0.Coords) : Prop := (Scalar.cmpi .ne (Scalar.extui (Scalar.cmpi .eq (BitVec.ofNat 32 (i 0).val) 0#32)) 0#32) = 1#1
/-- It holds at the first point only. -/
theorem atFirst_iff : ∀ t : Fin cfg0.N, atFirst (grid0.coords t) ↔ t.val = 0 :=
  (by decide +kernel : ∀ t : Fin grid0.N, atFirst (grid0.coords t) ↔ t.val = 0)

/-- The copy-out branch's condition. -/
abbrev atLast (i : grid0.Coords) : Prop := k0_cond2 i = 1#1
/-- It holds at the last point only. -/
theorem atLast_iff : ∀ t : Fin cfg0.N, atLast (grid0.coords t) ↔ t.val = 15 :=
  (by decide +kernel : ∀ t : Fin grid0.N, atLast (grid0.coords t) ↔ t.val = 15)

/-! ## Where the windows are idle -/

theorem xLive : ∀ t : Fin cfg0.N, cfg0.idle 0 (grid0.coords t) = false := by decide +kernel
theorem outIdle : ∀ t : Fin cfg0.N, ¬atLast (grid0.coords t) → cfg0.idle 1 (grid0.coords t) = true := by decide +kernel
theorem outNoFlush : ∀ t : Fin cfg0.N, ¬atLast (grid0.coords t) → (cfg0.win 1).flush t = false := by decide +kernel
theorem outLive : ∀ t : Fin cfg0.N, atLast (grid0.coords t) → cfg0.idle 1 (grid0.coords t) = false := by decide +kernel

/-! ## The buffers the body is called with -/

abbrev xBuf (t : Fin cfg0.N) : Memref sig .tc .vmem S4096x512 .f32 := win0_0.stage (cfg0.slots t 0)
abbrev xBufWhole (t : Fin cfg0.N) : (xBuf t).IsWhole := hstage0_0 ((cfg0.slots t 0).cast nbuf0_0)
abbrev outBuf (t : Fin cfg0.N) : Memref sig .tc .vmem S1x1 .f32 := win0_1.stage (cfg0.slots t 1)
abbrev outBufWhole (t : Fin cfg0.N) : (outBuf t).IsWhole := hstage0_1 ((cfg0.slots t 1).cast nbuf0_1)
/-- The scratch holding the running maximum: a whole scoped buffer of the kernel's own. -/
abbrev accBuf : Memref sig .tc .vmem S1x1 .f32 := Memref.whole cc0_scratch0
abbrev accView : View sig .tc .vmem S1x1 .f32 := accBuf.view
abbrev outView : View sig .tc .vmem S1x1 .f32 := (Memref.whole cc0_stg1_0 : Memref sig .tc .vmem S1x1 .f32).view

/-! ## The body's run, path by path -/

set_option maxHeartbeats 1000000 in
/-- FIRST POINT (reset taken, copy-out not taken): the scratch at anything, the output buffer handed back untouched. -/
noncomputable def runFirst (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : atFirst i) (h2 : ¬atLast i)
    (x : Vec F S4096x512 .f32) :
    { LS : List (View.Piece (Elt F) S1x1 .f32) //
      ∀ (o : Vec F S1x1 .f32) (E : Set ℕ) (K : PUnit → sProp 𝕄),
        iprop(owns (c : Thread nD τ) arg1 fullShare x ∗ owns (c : Thread nD τ) arg2 fullShare o ∗ (∃ d, owns (c : Thread nD τ) arg3 fullShare d)
            ∗ (iprop(owns (c : Thread nD τ) arg1 fullShare x ∗ owns (c : Thread nD τ) arg2 fullShare o ∗ (∃ f, arg3.view.loc (c : Thread nD τ) ↦[arg3.view.set]{fullShare} arg3.view.writes (Elt F) f LS)) -∗ K ⟨⟩))
          ⊢ wp frame (wpE (defs₀ (F := F)) Variants.none c none) E (cc0__max_abs_kernel i arg1 harg1 arg2 harg2 arg3 harg3) K } := by
  refine ⟨?_, fun o E K => ?run⟩
  case run =>
    simp only [cc0__max_abs_kernel_eq_skeleton]; unfold cc0__max_abs_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- MIDDLE POINTS (neither branch taken): the scratch at what the point before left. -/
noncomputable def runMid (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : ¬atLast i)
    (x : Vec F S4096x512 .f32) (a : Vec F S1x1 .f32) :
    { LS : List (View.Piece (Elt F) S1x1 .f32) //
      ∀ (o : Vec F S1x1 .f32) (E : Set ℕ) (K : PUnit → sProp 𝕄),
        iprop(owns (c : Thread nD τ) arg1 fullShare x ∗ owns (c : Thread nD τ) arg2 fullShare o ∗ owns (c : Thread nD τ) arg3 fullShare a
            ∗ (iprop(owns (c : Thread nD τ) arg1 fullShare x ∗ owns (c : Thread nD τ) arg2 fullShare o ∗ (∃ f, arg3.view.loc (c : Thread nD τ) ↦[arg3.view.set]{fullShare} arg3.view.writes (Elt F) f LS)) -∗ K ⟨⟩))
          ⊢ wp frame (wpE (defs₀ (F := F)) Variants.none c none) E (cc0__max_abs_kernel i arg1 harg1 arg2 harg2 arg3 harg3) K } := by
  refine ⟨?_, fun o E K => ?run⟩
  case run =>
    simp only [cc0__max_abs_kernel_eq_skeleton]; unfold cc0__max_abs_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact h1 | exact h2)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- LAST POINT (reset not taken, copy-out taken): the scratch at what the point before left, the output at anything. -/
noncomputable def runLast (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i)
    (x : Vec F S4096x512 .f32) (a : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x ∗ (∃ d, owns (c : Thread nD τ) arg2 fullShare d) ∗ owns (c : Thread nD τ) arg3 fullShare a
            ∗ (iprop(owns (c : Thread nD τ) arg1 fullShare x ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc0__max_abs_kernel i arg1 harg1 arg2 harg2 arg3 harg3) K } := by
  refine ⟨?_, ?_, fun E K => ?run⟩
  case run =>
    simp only [cc0__max_abs_kernel_eq_skeleton]; unfold cc0__max_abs_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact h1 | exact h2)
    sl_step
    iapply Hk
    isplitl [H0]
    · iexists _; isplitr; · ipureintro; exact harg1.read_unread _
      iexact H0
    isplitl [H1]; · iexists _; iexact H1
    iexists _; iexact HS0

end Cert.KernelIdeal.Hand

end
-- ==== Proof.OnIdeal.MaxRegion.lean ====
/-
  The first kernel region, part two: what the scratch holds after each of the 16 grid points — the fold of the blocks'
  maxima, as the body's runs leave it —, the region's invariant (before the first point the scoped buffers at anything;
  afterwards the scratch at the running maximum so far), the proof data and the body obligation. The output window is
  idle at every point but the last, where the body copies the scratch into it. Stated at any float instance and at any
  contents `V` of the buffers when the region is entered.
-/
import proofs.«104424_j7687991459869_1_alg».proof.Proof.OnIdeal.MaxRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block the body reads -/

/-- The block of window `w` at grid point `t`, cut out of the window's array as the region finds it. -/
def maxBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window holds its block at every point (it is fetched at each, and the body leaves it in place). -/
theorem maxBefore0_of {c : Dev nD} (dat : Dat τ (Elt F) Unit ℕ (UR sig nD τ) ℕ cfg0 c) (hA : dat.A 0 = V c (Pipeline.arrRef spec0 0))
    (hafter : ∀ t, dat.after 0 t = maxBlock V c 0 t) (t : Fin cfg0.N) (d) : dat.before 0 t d = maxBlock V c 0 t :=
  (dat.before_in_eq_fetched 0 rfl (fun _ => rfl) (fun _ _ _ => rfl) (fun t => by rw [hafter]; unfold Dat.blockOf maxBlock; rw [hA]; try rfl) t d).trans
    (by unfold Dat.fetched Dat.blockOf maxBlock; rw [hA]; try rfl)

/-! ## What the scratch holds after each point -/

theorem notLast_of_zero (t : Fin cfg0.N) (h : t.val = 0) : ¬atLast (grid0.coords t) := fun hl => by
  have := (atLast_iff t).mp hl; omega
theorem notFirst_of_pos (t : Fin cfg0.N) (h : t.val ≠ 0) : ¬atFirst (grid0.coords t) := fun hf => h ((atFirst_iff t).mp hf)
theorem notLast_of_ne (t : Fin cfg0.N) (h : t.val ≠ 15) : ¬atLast (grid0.coords t) := fun hl => h ((atLast_iff t).mp hl)

/-- THE ACCUMULATION: the scratch after the body at position `n` — the path the conditions select there, run on the
    point's buffers and block, from what the point before left. -/
def accAt (c : Dev nD) : (n : ℕ) → n < cfg0.N → Vec F S1x1 .f32
  | 0, hn => accView.read (Elt F) (accView.writes (Elt F) accView.junk
      (runFirst c (grid0.coords ⟨0, hn⟩) (xBuf ⟨0, hn⟩) (xBufWhole ⟨0, hn⟩) (outBuf ⟨0, hn⟩) (outBufWhole ⟨0, hn⟩) accBuf (Memref.isWhole_whole _) ((atFirst_iff ⟨0, hn⟩).mpr rfl) (notLast_of_zero ⟨0, hn⟩ rfl) (maxBlock V c 0 ⟨0, hn⟩)).1)
  | n + 1, hn =>
    if hl : n + 1 = 15 then
      accView.read (Elt F) (accView.writes (Elt F) accView.junk
        (runLast c (grid0.coords ⟨n + 1, hn⟩) (xBuf ⟨n + 1, hn⟩) (xBufWhole ⟨n + 1, hn⟩) (outBuf ⟨n + 1, hn⟩) (outBufWhole ⟨n + 1, hn⟩) accBuf (Memref.isWhole_whole _) (notFirst_of_pos ⟨n + 1, hn⟩ (Nat.succ_ne_zero n)) ((atLast_iff ⟨n + 1, hn⟩).mpr hl)
          (maxBlock V c 0 ⟨n + 1, hn⟩) (accAt c n (Nat.lt_of_succ_lt hn))).2.1)
    else
      accView.read (Elt F) (accView.writes (Elt F) accView.junk
        (runMid c (grid0.coords ⟨n + 1, hn⟩) (xBuf ⟨n + 1, hn⟩) (xBufWhole ⟨n + 1, hn⟩) (outBuf ⟨n + 1, hn⟩) (outBufWhole ⟨n + 1, hn⟩) accBuf (Memref.isWhole_whole _) (notFirst_of_pos ⟨n + 1, hn⟩ (Nat.succ_ne_zero n)) (notLast_of_ne ⟨n + 1, hn⟩ hl)
          (maxBlock V c 0 ⟨n + 1, hn⟩) (accAt c n (Nat.lt_of_succ_lt hn))).1)

/-- The output buffer after the body at the last point: the copy of the scratch; elsewhere a placeholder nothing reads
    (the window is idle there and not written back). -/
def outAt (c : Dev nD) (t : Fin cfg0.N) : Vec F S1x1 .f32 :=
  if hl : t.val = 15 then
    outView.read (Elt F) (outView.writes (Elt F) outView.junk
      (runLast c (grid0.coords t) (xBuf t) (xBufWhole t) (outBuf t) (outBufWhole t) accBuf (Memref.isWhole_whole _) (notFirst_of_pos t (by omega)) ((atLast_iff t).mpr hl)
        (maxBlock V c 0 t) (accAt V c (t.val - 1) (Nat.lt_of_le_of_lt (Nat.sub_le _ _) t.isLt))).1)
  else outView.read (Elt F) outView.junk

theorem accAt_first (c : Dev nD) (t : Fin cfg0.N) (h0 : t.val = 0) :
    accAt V c t.val t.isLt = accView.read (Elt F) (accView.writes (Elt F) accView.junk
      (runFirst c (grid0.coords t) (xBuf t) (xBufWhole t) (outBuf t) (outBufWhole t) accBuf (Memref.isWhole_whole _) ((atFirst_iff t).mpr h0) (notLast_of_zero t h0) (maxBlock V c 0 t)).1) := by
  obtain ⟨n, hn⟩ := t
  cases n with
  | zero => rfl
  | succ n => exact absurd h0 (Nat.succ_ne_zero n)

theorem accAt_mid (c : Dev nD) (t : Fin cfg0.N) (h0 : t.val ≠ 0) (hl : t.val ≠ 15) :
    accAt V c t.val t.isLt = accView.read (Elt F) (accView.writes (Elt F) accView.junk
      (runMid c (grid0.coords t) (xBuf t) (xBufWhole t) (outBuf t) (outBufWhole t) accBuf (Memref.isWhole_whole _) (notFirst_of_pos t h0) (notLast_of_ne t hl)
        (maxBlock V c 0 t) (accAt V c (t.val - 1) (Nat.lt_of_le_of_lt (Nat.sub_le _ _) t.isLt))).1) := by
  obtain ⟨n, hn⟩ := t
  cases n with
  | zero => exact absurd rfl h0
  | succ n => exact (dif_neg hl).trans rfl

theorem accAt_last (c : Dev nD) (t : Fin cfg0.N) (h0 : t.val ≠ 0) (hl : t.val = 15) :
    accAt V c t.val t.isLt = accView.read (Elt F) (accView.writes (Elt F) accView.junk
      (runLast c (grid0.coords t) (xBuf t) (xBufWhole t) (outBuf t) (outBufWhole t) accBuf (Memref.isWhole_whole _) (notFirst_of_pos t h0) ((atLast_iff t).mpr hl)
        (maxBlock V c 0 t) (accAt V c (t.val - 1) (Nat.lt_of_le_of_lt (Nat.sub_le _ _) t.isLt))).2.1) := by
  obtain ⟨n, hn⟩ := t
  cases n with
  | zero => exact absurd rfl h0
  | succ n => exact (dif_pos hl).trans rfl

theorem outAt_last (c : Dev nD) (t : Fin cfg0.N) (h0 : t.val ≠ 0) (hl : t.val = 15) :
    outAt V c t = outView.read (Elt F) (outView.writes (Elt F) outView.junk
      (runLast c (grid0.coords t) (xBuf t) (xBufWhole t) (outBuf t) (outBufWhole t) accBuf (Memref.isWhole_whole _) (notFirst_of_pos t h0) ((atLast_iff t).mpr hl)
        (maxBlock V c 0 t) (accAt V c (t.val - 1) (Nat.lt_of_le_of_lt (Nat.sub_le _ _) t.isLt))).1) := by
  unfold outAt; exact (dif_pos hl).trans rfl

/-! ## The stores of each path cover the 1×1 buffers -/

theorem coverFirst (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : atFirst i) (h2 : ¬atLast i)
    (x : Vec F S4096x512 .f32) (y : S1x1.Idx) : ∃ pc ∈ (runFirst c i arg1 harg1 arg2 harg2 arg3 harg3 h1 h2 x).1, y ∈ pc.1.set :=
  View.cover_of_tiledL (runFirst c i arg1 harg1 arg2 harg2 arg3 harg3 h1 h2 x).1 S1x1.size (by sl_kernel_rfl) y

theorem coverMid (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : ¬atLast i)
    (x : Vec F S4096x512 .f32) (a : Vec F S1x1 .f32) (y : S1x1.Idx) : ∃ pc ∈ (runMid c i arg1 harg1 arg2 harg2 arg3 harg3 h1 h2 x a).1, y ∈ pc.1.set :=
  View.cover_of_tiledL (runMid c i arg1 harg1 arg2 harg2 arg3 harg3 h1 h2 x a).1 S1x1.size (by sl_kernel_rfl) y

theorem coverLastAcc (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i)
    (x : Vec F S4096x512 .f32) (a : Vec F S1x1 .f32) (y : S1x1.Idx) : ∃ pc ∈ (runLast c i arg1 harg1 arg2 harg2 arg3 harg3 h1 h2 x a).2.1, y ∈ pc.1.set :=
  View.cover_of_tiledL (runLast c i arg1 harg1 arg2 harg2 arg3 harg3 h1 h2 x a).2.1 S1x1.size (by sl_kernel_rfl) y

theorem coverLastOut (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i)
    (x : Vec F S4096x512 .f32) (a : Vec F S1x1 .f32) (y : S1x1.Idx) : ∃ pc ∈ (runLast c i arg1 harg1 arg2 harg2 arg3 harg3 h1 h2 x a).1, y ∈ pc.1.set :=
  View.cover_of_tiledL (runLast c i arg1 harg1 arg2 harg2 arg3 harg3 h1 h2 x a).1 S1x1.size (by sl_kernel_rfl) y

/-! ## The region's invariant -/

/-- The core's scoped buffers other than this region's staging buffers and the scratch (the second region's staging
    buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scoped rest of the region: the scratch at some contents beside the other scoped buffers. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) accBuf fullShare d) ∗ otherScoped c) := by
  rw [scopedRest0_eq]; unfold otherScoped; simp only [accBuf, owns_whole]; try rfl

/-- Before position `n`: at the start the scoped rest at anything; afterwards the scratch at what the point before left. -/
def maxInv (c : Dev nD) : (n : ℕ) → n ≤ cfg0.N → sProp 𝕄
  | 0, _ => Pipeline.ΦA spec0 c
  | n + 1, hn => iprop(iprop(owns (c : Thread nD τ) accBuf fullShare (accAt V c n hn) ∗ otherScoped c) ∗ (∃ r, prngReg c r))

theorem maxInv_zero (c : Dev nD) (n : ℕ) (h : n ≤ cfg0.N) (hz : n = 0) : maxInv V c n h = Pipeline.ΦA spec0 c := by
  subst hz; rfl

theorem maxInv_succ (c : Dev nD) (n : ℕ) (hn : n < cfg0.N) :
    maxInv V c (n + 1) hn = iprop(iprop(owns (c : Thread nD τ) accBuf fullShare (accAt V c n hn) ∗ otherScoped c) ∗ (∃ r, prngReg c r)) := rfl

theorem maxInv_pos (c : Dev nD) (n : ℕ) (h : n ≤ cfg0.N) (hz : n ≠ 0) :
    maxInv V c n h = iprop(iprop(owns (c : Thread nD τ) accBuf fullShare (accAt V c (n - 1) (by omega)) ∗ otherScoped c) ∗ (∃ r, prngReg c r)) := by
  cases n with
  | zero => exact absurd rfl hz
  | succ n => rfl

theorem classInv_split (c : Dev nD) :
    (Pipeline.ΦA spec0 c : sProp 𝕄) = iprop(iprop((∃ d, owns (c : Thread nD τ) accBuf fullShare d) ∗ otherScoped c) ∗ (∃ r, prngReg c r)) := by
  unfold Pipeline.ΦA; rw [scopedRest_split]

/-! ## The proof data -/

def maxDat (c : Dev nD) : Dat τ (Elt F) Unit ℕ (UR sig nD τ) ℕ cfg0 c where
  A w := V c (Pipeline.arrRef spec0 w)
  after w t := match w with
    | ⟨0, _⟩ => maxBlock V c 0 t
    | ⟨1, _⟩ => outAt V c t
  Φ t := maxInv V c t.val (Nat.le_of_lt_succ t.isLt)
  q _ := fullShare
  owed _ := 0

theorem maxA (c : Dev nD) (w : Fin cfg0.W) : (maxDat V c).A w = V c (Pipeline.arrRef spec0 w) := by
  dsimp only [maxDat]

theorem maxInv_castSucc (c : Dev nD) (t : Fin cfg0.N) :
    (maxDat V c).Φ t.castSucc = maxInv V c t.val (Nat.le_of_lt t.isLt) := by
  dsimp only [maxDat]; simp only [Fin.coe_castSucc]

theorem maxAfter0 (c : Dev nD) (t : Fin cfg0.N) : (maxDat V c).after 0 t = maxBlock V c 0 t := by dsimp only [maxDat]
theorem maxAfter1 (c : Dev nD) (t : Fin cfg0.N) : (maxDat V c).after 1 t = outAt V c t := by dsimp only [maxDat]

theorem maxBefore0 (c : Dev nD) (t : Fin cfg0.N) (d) : (maxDat V c).before 0 t d = maxBlock V c 0 t :=
  maxBefore0_of V (maxDat V c) (maxA V c 0) (maxAfter0 V c) t d

/-! ## The body obligation -/

def maxPre (c : Dev nD) (t : Fin cfg0.N) : sProp 𝕄 :=
  iprop((maxDat V c).Φ t.castSucc ∗ (maxDat V c).owesAt () t.castSucc
    ∗ (∃ d, owns (c : Thread nD τ) (xBuf t) fullShare ((maxDat V c).before 0 t d))
    ∗ (∃ d, owns (c : Thread nD τ) (outBuf t) fullShare ((maxDat V c).before 1 t d)))

def maxPost (c : Dev nD) (t : Fin cfg0.N) : sProp 𝕄 :=
  iprop((maxDat V c).Φ t.succ ∗ (maxDat V c).owesAt () t.succ
    ∗ (maxDat V c).leavesExact 0 t
    ∗ (maxDat V c).leavesExact 1 t)

set_option maxHeartbeats 4800000 in
/-- The body at any point. The conditions' closed forms say which path the point takes; the invariant hands the body the
    scratch at what the point before left (at anything at the first point) and takes it back at this point's contents. -/
theorem maxBody (c : Dev nD) (t : Fin cfg0.N) :
    maxPre V c t ⊢ wp frame (wpE (defs₀ (F := F)) Variants.none c none) Set.univ (bodyAt0 t) (fun _ => maxPost V c t) := by
  unfold maxPre maxPost bodyAt0
  simp only [maxBefore0]
  rw [show (maxDat V c).owesAt () t.succ = (maxDat V c).owesAt () t.castSucc from rfl]
  rw [show (maxDat V c).Φ t.succ = maxInv V c (t.val + 1) t.isLt from rfl, maxInv_succ]
  rw [show (maxDat V c).leavesExact 0 t = owns (c : Thread nD τ) (xBuf t) fullShare ((maxDat V c).after 0 t) from by
    unfold Dat.leavesExact; rw [xLive t], maxAfter0]
  have hN : t.val < 16 := lt_of_lt_of_eq t.isLt (show cfg0.N = 16 from N_0)
  by_cases h0 : t.val = 0
  · -- the first point
    have hnl := notLast_of_zero t h0
    rw [Dat.leavesExact_idle (maxDat V c) 1 t (outIdle t hnl) (outNoFlush t hnl)]
    rw [accAt_first V c t h0]
    rw [maxInv_castSucc V c t, maxInv_zero V c _ _ h0, classInv_split]
    iintro ⟨⟨⟨HS0, Hr⟩, Hg⟩, Ho, ⟨%d0, H0⟩, ⟨%d1, H1⟩⟩
    iapply ((runFirst c (grid0.coords t) _ _ _ _ _ _ ((atFirst_iff t).mpr h0) hnl (maxBlock V c 0 t)).2 _ Set.univ _)
    isplitl [H0]; · iexact H0
    isplitl [H1]; · iexact H1
    isplitl [HS0]; · iexact HS0
    iintro ⟨H0, H1, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (coverFirst c _ _ _ _ _ _ _ _ _ _)
        iexact Hr
      iexact Hg
    isplitl [Ho]; · iexact Ho
    isplitl [H0]; · iexact H0
    iexists _; iexact H1
  · by_cases hl : t.val = 15
    · -- the last point
      rw [show (maxDat V c).leavesExact 1 t = owns (c : Thread nD τ) (outBuf t) fullShare ((maxDat V c).after 1 t) from by
        unfold Dat.leavesExact; rw [outLive t ((atLast_iff t).mpr hl)], maxAfter1]
      rw [accAt_last V c t h0 hl, outAt_last V c t h0 hl]
      rw [maxInv_castSucc V c t, maxInv_pos V c _ _ h0]
      iintro ⟨⟨⟨HS0, Hr⟩, Hg⟩, Ho, ⟨%d0, H0⟩, ⟨%d1, H1⟩⟩
      iapply ((runLast c (grid0.coords t) _ _ _ _ _ _ (notFirst_of_pos t h0) ((atLast_iff t).mpr hl) (maxBlock V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverLastAcc c _ _ _ _ _ _ _ _ _ _ _)
          iexact Hr
        iexact Hg
      isplitl [Ho]; · iexact Ho
      isplitl [H0]; · iexact H0
      unfold owns; iexists _; isplitr
      swap; · iexact H1
      ipureintro; exact View.read_writes_of_cover _ _ _ _ _ (coverLastOut c _ _ _ _ _ _ _ _ _ _ _)
    · -- a middle point
      have hnl := notLast_of_ne t hl
      rw [Dat.leavesExact_idle (maxDat V c) 1 t (outIdle t hnl) (outNoFlush t hnl)]
      rw [accAt_mid V c t h0 hl]
      rw [maxInv_castSucc V c t, maxInv_pos V c _ _ h0]
      iintro ⟨⟨⟨HS0, Hr⟩, Hg⟩, Ho, ⟨%d0, H0⟩, ⟨%d1, H1⟩⟩
      iapply ((runMid c (grid0.coords t) _ _ _ _ _ _ (notFirst_of_pos t h0) hnl (maxBlock V c 0 t) _).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (coverMid c _ _ _ _ _ _ _ _ _ _ _)
          iexact Hr
        iexact Hg
      isplitl [Ho]; · iexact Ho
      isplitl [H0]; · iexact H0
      iexists _; iexact H1

theorem maxObligation (c : Dev nD) : BodyObligation (maxDat (F := F) V c) (defs₀ (F := F)) Variants.none () Set.univ := fun t => by
  rw [bigSep_W0, bigSep_W0]
  exact maxBody V c t

/-! ## In and out of the invariant -/

theorem maxIn (c : Dev nD) : Pipeline.ΦA spec0 c ⊢ (maxDat V c).Φ 0 := by
  rw [show (maxDat V c).Φ 0 = maxInv V c 0 (Nat.zero_le _) from rfl, maxInv_zero V c 0 _ rfl]
  try exact Idealize.SL.BI.Entails.refl _

/-- After the last point the invariant gives the scoped rest back, the scratch's contents forgotten. -/
theorem maxOut (c : Dev nD) : (maxDat V c).Φ (Fin.last cfg0.N) ⊢ Pipeline.ΦA spec0 c := by
  rw [show (maxDat V c).Φ (Fin.last cfg0.N) = maxInv V c (Fin.last cfg0.N).val (Nat.le_of_lt_succ (Fin.last cfg0.N).isLt) from rfl,
    maxInv_pos V c _ _ (by rw [Fin.val_last]; have : cfg0.N = 16 := N_0; omega), classInv_split]
  iintro ⟨⟨HS0, Hr⟩, Hg⟩
  isplitl [HS0 Hr]
  · isplitl [HS0]
    · iexists _; iexact HS0
    iexact Hr
  iexact Hg

end Cert.KernelIdeal.Hand

end
-- ==== Proof.OnIdeal.LinearRegion.lean ====
/-
  The second kernel region: the fused quantise–matmul–bias body, one block of 2048 rows of the activations at a
  grid point. The body reads the activation block, the (transposed, quantised) weight matrix, the quantised bias
  row and the 1×1 activation scale, and stores ONE value into the output block: every output entry is a function
  of the four input blocks only, so the region is a map over the 32 row blocks. Stated at any float instance.
-/
import proofs.«104424_j7687991459869_1_alg».proof.Proof.Gen.KernelIdeal.Launch
import proofs.«104424_j7687991459869_1_alg».proof.Proof.Gen.KernelIdeal.Skeleton
import proofs.«104424_j7687991459869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks the body reads -/

/-- The block of window `w` at grid point `t`, cut out of the window's array as the region finds it. -/
def linBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose block the body leaves in place holds that block at every point, whether the pipeline
    fetched it there or kept the previous point's (the block index had not moved): one statement per input window. -/
theorem linBefore0_of {c : Dev nD} (dat : Dat τ (Elt F) Unit ℕ (UR sig nD τ) ℕ cfg1 c) (hA : dat.A 0 = V c (Pipeline.arrRef spec1 0))
    (hafter : ∀ t, dat.after 0 t = linBlock V c 0 t) (t : Fin cfg1.N) (d) : dat.before 0 t d = linBlock V c 0 t :=
  (dat.before_in_eq_fetched 0 rfl (fun _ => rfl) (fun _ _ _ => rfl) (fun t => by rw [hafter]; unfold Dat.blockOf linBlock; rw [hA]; try rfl) t d).trans
    (by unfold Dat.fetched Dat.blockOf linBlock; rw [hA]; try rfl)
theorem linBefore1_of {c : Dev nD} (dat : Dat τ (Elt F) Unit ℕ (UR sig nD τ) ℕ cfg1 c) (hA : dat.A 1 = V c (Pipeline.arrRef spec1 1))
    (hafter : ∀ t, dat.after 1 t = linBlock V c 1 t) (t : Fin cfg1.N) (d) : dat.before 1 t d = linBlock V c 1 t :=
  (dat.before_in_eq_fetched 1 rfl (fun _ => rfl) (fun _ _ _ => rfl) (fun t => by rw [hafter]; unfold Dat.blockOf linBlock; rw [hA]; try rfl) t d).trans
    (by unfold Dat.fetched Dat.blockOf linBlock; rw [hA]; try rfl)
theorem linBefore2_of {c : Dev nD} (dat : Dat τ (Elt F) Unit ℕ (UR sig nD τ) ℕ cfg1 c) (hA : dat.A 2 = V c (Pipeline.arrRef spec1 2))
    (hafter : ∀ t, dat.after 2 t = linBlock V c 2 t) (t : Fin cfg1.N) (d) : dat.before 2 t d = linBlock V c 2 t :=
  (dat.before_in_eq_fetched 2 rfl (fun _ => rfl) (fun _ _ _ => rfl) (fun t => by rw [hafter]; unfold Dat.blockOf linBlock; rw [hA]; try rfl) t d).trans
    (by unfold Dat.fetched Dat.blockOf linBlock; rw [hA]; try rfl)
theorem linBefore3_of {c : Dev nD} (dat : Dat τ (Elt F) Unit ℕ (UR sig nD τ) ℕ cfg1 c) (hA : dat.A 3 = V c (Pipeline.arrRef spec1 3))
    (hafter : ∀ t, dat.after 3 t = linBlock V c 3 t) (t : Fin cfg1.N) (d) : dat.before 3 t d = linBlock V c 3 t :=
  (dat.before_in_eq_fetched 3 rfl (fun _ => rfl) (fun _ _ _ => rfl) (fun t => by rw [hafter]; unfold Dat.blockOf linBlock; rw [hA]; try rfl) t d).trans
    (by unfold Dat.fetched Dat.blockOf linBlock; rw [hA]; try rfl)

/-! ## What the body stores -/

abbrev rX : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0
abbrev rS : Rect S1x1 := Rect.unit (s := S1x1) ![0, 0] S1x1.size inb_S1x1_S1x1_0_0

/-- The output block after the body: its one store, of the body's arithmetic on the four input blocks. -/
def linOut (x : Vec F S2048x512 .f32) (w : Vec F S512x512 .bf16) (b : Vec F S1x512 .f32) (s : Vec F S1x1 .f32) : Vec F S2048x512 .f32 :=
  View.canon [⟨rX, k1_pay1 (View.ld s rS) (View.ld x rX) (View.ld w rW) (View.ld b rB)⟩]

/-- The one store covers the whole block. -/
theorem linCover (p0 : Vec F S2048x512 .f32) (y : S2048x512.Idx) :
    ∃ pc ∈ ([⟨rX, p0⟩] : List (View.Piece (Elt F) S2048x512 .f32)), y ∈ pc.1.set :=
  View.cover_of_tiled [⟨rX, p0⟩] S2048x512.size (by rfl) y

/-! ## The body's run -/

set_option maxHeartbeats 1000000 in
/-- On whole staging buffers, the inputs' at read contents and the output's at anything, the body runs to the
    continuation with the inputs as they were and the output at `linOut` of them. -/
theorem linRuns (c : Dev nD) (E : Set ℕ) (i : grid1.Coords)
    (arg1 : Memref sig .tc .vmem S2048x512 .f32) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x1 .f32) (harg4 : arg4.IsWhole)
    (arg5 : Memref sig .tc .vmem S2048x512 .f32) (harg5 : arg5.IsWhole)
    (x : Vec F S2048x512 .f32) (w : Vec F S512x512 .bf16) (b : Vec F S1x512 .f32) (s : Vec F S1x1 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare s ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare s ∗ owns (c : Thread nD τ) arg5 fullShare (linOut x w b s)) -∗ K ⟨⟩))
      ⊢ wp frame (wpE (defs₀ (F := F)) Variants.none c none) E (cc1__quant_linear_kernel i arg1 harg1 arg2 harg2 arg3 harg3 arg4 harg4 arg5 harg5) K := by
  simp only [cc1__quant_linear_kernel_eq_skeleton]; unfold cc1__quant_linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (linCover _)

/-! ## The proof data of the region -/

/-- The region's proof data on core `c`: the arrays as found; after the body each input buffer at its block, the
    output buffer at `linOut` of the four blocks; the scoped rest and the generator register untouched; nothing owed. -/
def linDat (c : Dev nD) : Dat τ (Elt F) Unit ℕ (UR sig nD τ) ℕ cfg1 c where
  A w := V c (Pipeline.arrRef spec1 w)
  after w t := match w with
    | ⟨0, _⟩ => linBlock V c 0 t
    | ⟨1, _⟩ => linBlock V c 1 t
    | ⟨2, _⟩ => linBlock V c 2 t
    | ⟨3, _⟩ => linBlock V c 3 t
    | ⟨4, _⟩ => linOut (linBlock V c 0 t) (linBlock V c 1 t) (linBlock V c 2 t) (linBlock V c 3 t)
  Φ _ := Pipeline.ΦA spec1 c
  q _ := fullShare
  owed _ := 0

theorem linA (c : Dev nD) (w : Fin cfg1.W) : (linDat V c).A w = V c (Pipeline.arrRef spec1 w) := by
  dsimp only [linDat]

theorem linAfter0 (c : Dev nD) (t : Fin cfg1.N) : (linDat V c).after 0 t = linBlock V c 0 t := by dsimp only [linDat]
theorem linAfter1 (c : Dev nD) (t : Fin cfg1.N) : (linDat V c).after 1 t = linBlock V c 1 t := by dsimp only [linDat]
theorem linAfter2 (c : Dev nD) (t : Fin cfg1.N) : (linDat V c).after 2 t = linBlock V c 2 t := by dsimp only [linDat]
theorem linAfter3 (c : Dev nD) (t : Fin cfg1.N) : (linDat V c).after 3 t = linBlock V c 3 t := by dsimp only [linDat]
theorem linAfter4 (c : Dev nD) (t : Fin cfg1.N) :
    (linDat V c).after 4 t = linOut (linBlock V c 0 t) (linBlock V c 1 t) (linBlock V c 2 t) (linBlock V c 3 t) := by dsimp only [linDat]

theorem linBefore0 (c : Dev nD) (t : Fin cfg1.N) (d) : (linDat V c).before 0 t d = linBlock V c 0 t :=
  linBefore0_of V (linDat V c) (linA V c 0) (linAfter0 V c) t d
theorem linBefore1 (c : Dev nD) (t : Fin cfg1.N) (d) : (linDat V c).before 1 t d = linBlock V c 1 t :=
  linBefore1_of V (linDat V c) (linA V c 1) (linAfter1 V c) t d
theorem linBefore2 (c : Dev nD) (t : Fin cfg1.N) (d) : (linDat V c).before 2 t d = linBlock V c 2 t :=
  linBefore2_of V (linDat V c) (linA V c 2) (linAfter2 V c) t d
theorem linBefore3 (c : Dev nD) (t : Fin cfg1.N) (d) : (linDat V c).before 3 t d = linBlock V c 3 t :=
  linBefore3_of V (linDat V c) (linA V c 3) (linAfter3 V c) t d

/-! ## The body obligation -/

def linPre (c : Dev nD) (t : Fin cfg1.N) : sProp 𝕄 :=
  iprop((linDat V c).Φ t.castSucc ∗ (linDat V c).owesAt () t.castSucc
    ∗ (∃ d, owns (c : Thread nD τ) (st1_0 t) fullShare ((linDat V c).before 0 t d))
    ∗ (∃ d, owns (c : Thread nD τ) (st1_1 t) fullShare ((linDat V c).before 1 t d))
    ∗ (∃ d, owns (c : Thread nD τ) (st1_2 t) fullShare ((linDat V c).before 2 t d))
    ∗ (∃ d, owns (c : Thread nD τ) (st1_3 t) fullShare ((linDat V c).before 3 t d))
    ∗ (∃ d, owns (c : Thread nD τ) (st1_4 t) fullShare ((linDat V c).before 4 t d)))

def linPost (c : Dev nD) (t : Fin cfg1.N) : sProp 𝕄 :=
  iprop((linDat V c).Φ t.succ ∗ (linDat V c).owesAt () t.succ
    ∗ owns (c : Thread nD τ) (st1_0 t) fullShare ((linDat V c).after 0 t)
    ∗ owns (c : Thread nD τ) (st1_1 t) fullShare ((linDat V c).after 1 t)
    ∗ owns (c : Thread nD τ) (st1_2 t) fullShare ((linDat V c).after 2 t)
    ∗ owns (c : Thread nD τ) (st1_3 t) fullShare ((linDat V c).after 3 t)
    ∗ owns (c : Thread nD τ) (st1_4 t) fullShare ((linDat V c).after 4 t))

/-- The body at any point: the inputs' buffers hold their blocks, the invariant and the core's dues pass through. -/
theorem linBody (c : Dev nD) (t : Fin cfg1.N) :
    linPre V c t ⊢ wp frame (wpE (defs₀ (F := F)) Variants.none c none) Set.univ (bodyAt1 t) (fun _ => linPost V c t) := by
  unfold linPre linPost bodyAt1
  simp only [linBefore0, linBefore1, linBefore2, linBefore3]
  rw [show (linDat V c).Φ t.succ = (linDat V c).Φ t.castSucc from rfl,
    show (linDat V c).owesAt () t.succ = (linDat V c).owesAt () t.castSucc from rfl,
    linAfter0, linAfter1, linAfter2, linAfter3, linAfter4]
  iintro ⟨HΦ, Ho, ⟨%d0, H0⟩, ⟨%d1, H1⟩, ⟨%d2, H2⟩, ⟨%d3, H3⟩, ⟨%d4, H4⟩⟩
  iapply (linRuns c Set.univ _ _ _ _ _ _ _ _ _ _ _ (linBlock V c 0 t) (linBlock V c 1 t) (linBlock V c 2 t) (linBlock V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem linObligation (c : Dev nD) : BodyObligation (linDat (F := F) V c) (defs₀ (F := F)) Variants.none () Set.univ := fun t => by
  rw [bigSep_W1, bigSep_W1]
  exact linBody V c t

end Cert.KernelIdeal.Hand

end
-- ==== Proof.OnIdeal.Run.lean ====
/-
  The whole run of @main: thirteen segments — the reshape of the activations, the max-reduction region, nine stretches
  of host operations (the scale, the weight and bias quantisation), the fused matmul region, the final reshape — with
  the contents of every unscoped buffer named at each boundary: a host stretch applies its operations; a region leaves
  each of its arrays at what its write-backs make of it and every other buffer alone. The run ends with every unscoped
  buffer at the last boundary's contents; no segment writes an argument. Stated at any float instance.
-/
import proofs.«104424_j7687991459869_1_alg».proof.Proof.OnIdeal.MaxRegion
import proofs.«104424_j7687991459869_1_alg».proof.Proof.OnIdeal.LinearRegion
import proofs.«104424_j7687991459869_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => m (c, b)
abbrev W1 : Dev nD → Valuation τ sig (Elt F) := fun c => StableHlo.after hostOps0 (W0 m c)
/-- The same read at the TensorCore's references: what the first region's proof data take. -/
abbrev V1 : (c : Dev nD) → (b : Ref sig .tc) → Buf (Elt F) ((c : Thread nD τ).loc b) := fun c b => W1 m c b
/-- After the max-reduction region: its arrays at what the pipeline leaves, every other buffer as entered. -/
def W2 (c : Dev nD) : Valuation τ sig (Elt F) :=
  Pipeline.withArrays spec0 c (W1 m c) fun w => (maxDat (V1 m) c).arrAt w cfg0.N
theorem W2_arr (c : Dev nD) (w : Fin cfg0.W) :
    W2 m c (Proc.devRef .tc (Pipeline.arrRef spec0 w)) = (maxDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (maxDat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
abbrev W9 : Dev nD → Valuation τ sig (Elt F) := fun c => StableHlo.after hostOps1_6 (W8 m c)
abbrev W10 : Dev nD → Valuation τ sig (Elt F) := fun c => StableHlo.after hostOps1_7 (W9 m c)
abbrev W11 : Dev nD → Valuation τ sig (Elt F) := fun c => StableHlo.after hostOps1_8 (W10 m c)
/-- What the fused matmul region's proof data take. -/
abbrev V11 : (c : Dev nD) → (b : Ref sig .tc) → Buf (Elt F) ((c : Thread nD τ).loc b) := fun c b => W11 m c b
/-- After the fused matmul region. -/
def W12 (c : Dev nD) : Valuation τ sig (Elt F) :=
  Pipeline.withArrays spec1 c (W11 m c) fun w => (linDat (V11 m) c).arrAt w cfg1.N
theorem W12_arr (c : Dev nD) (w : Fin cfg1.W) :
    W12 m c (Proc.devRef .tc (Pipeline.arrRef spec1 w)) = (linDat (V11 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev V12 : (c : Dev nD) → (b : Ref sig .tc) → Buf (Elt F) ((c : Thread nD τ).loc b) := fun c b => W12 m c b
theorem exit1_arr (c : Dev nD) (w : Fin cfg1.W) : (linDat (V11 m) c).arrAt w cfg1.N = V12 m c (Pipeline.arrRef spec1 w) :=
  (W12_arr m c w).symm
theorem exit1_rest (c : Dev nD) : ∀ b, b ∉ Finset.univ.image (Pipeline.arrRef spec1) → V12 m c b = V11 m c b :=
  fun b hb => W12_of_ne m c b fun w e => hb (Finset.mem_image.mpr ⟨w, Finset.mem_univ _, e⟩)
abbrev W13 : Dev nD → Valuation τ sig (Elt F) := fun c => StableHlo.after hostOps2 (W12 m c)

/-- A buffer that no host stretch writes and that is no array of either region ends as launched. -/
theorem W13_kept (c : Dev nD) (r : Ref sig .tc) (h0 : r ∉ hostOps0_W) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) (h8 : r ∉ hostOps1_7_W)
    (h9 : r ∉ hostOps1_8_W) (h10 : r ∉ hostOps2_W) (ha0 : ∀ w, Pipeline.arrRef spec0 w ≠ r) (ha1 : ∀ w, Pipeline.arrRef spec1 w ≠ r) :
    W13 m c (Proc.devRef .tc r) = m ((c : Thread nD τ).loc r) :=
  (StableHlo.after_of_writes_sub hostOps2 _ hostOps2_writes h10).trans <| (W12_of_ne m c r ha1).trans <|
  (StableHlo.after_of_writes_sub hostOps1_8 _ hostOps1_8_writes h9).trans <|
  (StableHlo.after_of_writes_sub hostOps1_7 _ hostOps1_7_writes h8).trans <|
  (StableHlo.after_of_writes_sub hostOps1_6 _ hostOps1_6_writes h7).trans <|
  (StableHlo.after_of_writes_sub hostOps1_5 _ hostOps1_5_writes h6).trans <|
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (W2_of_ne m c r ha0).trans <| (StableHlo.after_of_writes_sub hostOps0 _ hostOps0_writes h0).trans rfl

theorem W13_main_arg0 (c : Dev nD) : W13 m c (Proc.devRef .tc main_arg0) = m ((c : Thread nD τ).loc main_arg0) :=
  W13_kept m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_kept m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_kept m c main_arg2 (by decide) (by decide) (by decide) (by decide) (by decide) (by decide) (by decide) (by decide) (by decide) (by decide) (by decide) (by decide) (by decide)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => maxDat (V1 m) c
  | ⟨1, _⟩ => fun c => linDat (V11 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- The max-reduction region: entered from every unscoped buffer at `W1`, left at `W2`. The generator register and the
    scoped rest enter the region's invariant and come back out of it after the last point. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (maxObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (maxIn (V1 m) c)
    unfold Pipeline.ΦA
    iintro ⟨Hp, -, Hr⟩
    isplitl [Hr]; · iexact Hr
    iexact Hp
  hout c := by
    rw [Pipeline.ownSems0_none]
    refine BIBase.Entails.trans (maxOut (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused matmul region: entered from every unscoped buffer at `W11`, left at `W12`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (linObligation (V11 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .host (hseg hostOps1_7 hostOps1_7_sub hostOps1_7_fresh (W9 m)),
    .host (hseg hostOps1_8 hostOps1_8_sub hostOps1_8_fresh (W10 m)),
    .region (reg1 m),
    .host (hseg hostOps2 hostOps2_sub hostOps2_fresh (W12 m)) ]

/-- @main is the run of the segments. -/
theorem main_run (c : Dev nD) : main (F := F) c = Pipeline.Seg.run (segs m) :=
  (main_chain c).trans (by rw [Pipeline.Seg.run_eq_chain]; rfl)

set_option backward.isDefEq.respectTransparency.types false in
/-- THE RUN: every weakly fair execution of @main terminates, nothing faulting, with every unscoped buffer of every
    core at the last boundary's contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W13 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(StableHlo.held (c : Thread nD τ) (Pipeline.ucRefs τ sig) (W13 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c b hb => h c _ (mem_uc b hb))

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (by decide)).trans (W13_main_arg0 m c),
    (h c main_arg1 (by decide)).trans (W13_main_arg1 m c), (h c main_arg2 (by decide)).trans (W13_main_arg2 m c)⟩) (run m ρ)

end Cert.KernelIdeal.Hand

end
-- ==== Proof.OnIdeal.HostReads.lean ====
/-
  What the host operations around the two regions leave in the arrays the fused matmul region reads, and in the result.

  The activations are reshaped [8, 8192, 512] -> [65536, 512] before the first region and nothing writes them again. The
  activation scale is the first region's 1×1 output divided by 127. The weights go through the per-row quantisation —
  scale = max |w| over the row, over 127; quotient, round to even, clip to [-128, 127], times the scale —, are transposed
  and change float format (the identity on values): operation for operation the reference's quantised weights,
  transposed. The bias is quantised at the combined scale (activation scale times the row's weight scale) between the
  32-bit bounds and reshaped to a row; the result is the second region's output reshaped [65536, 512] -> [8, 8192, 512].
  The combined scale is formed here as (scalar broadcast) * (column reshaped to a vector) and in the reference as
  (scalar broadcast to a column) * column, then reshaped: entry o of both is activation scale * weight scale of row o.
-/
import proofs.«104424_j7687991459869_1_alg».proof.Proof.OnIdeal.Run
import proofs.«104424_j7687991459869_1_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx

variable (m : (ℓ : Loc nD τ sig) → Buf (Elt Ideal) ℓ)

/-- The three argument arrays as launched. -/
abbrev argX (c : Dev nD) : (⟨S8x8192x512, .f32⟩ : BufTy).Contents (Elt Ideal) := m ((c : Thread nD τ).loc main_arg0)
abbrev argW (c : Dev nD) : (⟨S512x512, .f32⟩ : BufTy).Contents (Elt Ideal) := m ((c : Thread nD τ).loc main_arg1)
abbrev argB (c : Dev nD) : (⟨S512, .f32⟩ : BufTy).Contents (Elt Ideal) := m ((c : Thread nD τ).loc main_arg2)

/-! ## Buffers the first region and the first reshape leave alone -/

/-- A buffer that the first reshape does not write and that is no array of the first region is, after that region,
    as launched. -/
theorem W2_kept (c : Dev nD) (r : Ref sig .tc) (h0 : r ∉ hostOps0_W) (ha0 : ∀ w, Pipeline.arrRef spec0 w ≠ r) :
    W2 m c (Proc.devRef .tc r) = m ((c : Thread nD τ).loc r) :=
  (W2_of_ne m c r ha0).trans <| (StableHlo.after_of_writes_sub hostOps0 _ hostOps0_writes h0).trans rfl

/-- The reshaped activations as the first region finds them. -/
theorem V1_main_v0 (c : Dev nD) :
    V1 m c main_v0 = shapeCast S65536x512 (argX m c) shapeCasts_S8x8192x512_S65536x512 := by
  show StableHlo.after hostOps0 (W0 m c) (Proc.devRef .tc main_v0) = _
  after_results_simp <;> rfl

/-- The first region reads the activations and does not write them. -/
theorem W2_main_v0 (c : Dev nD) : W2 m c (Proc.devRef .tc main_v0) = V1 m c main_v0 :=
  (W2_arr m c 0).trans (((maxDat (V1 m) c).arrAt_in 0 rfl cfg0.N).trans (maxA (V1 m) c 0))

/-- The first region's output array. -/
theorem W2_main_v1 (c : Dev nD) : W2 m c (Proc.devRef .tc main_v1) = (maxDat (V1 m) c).arrAt 1 cfg0.N :=
  W2_arr m c 1

/-! ## The four arrays the fused matmul region reads -/

/-- The activations reach the second region as reshaped. -/
theorem V11_main_v0 (c : Dev nD) :
    V11 m c main_v0 = shapeCast S65536x512 (argX m c) shapeCasts_S8x8192x512_S65536x512 := by
  show StableHlo.after hostOps1_8 (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m c))))))))) (Proc.devRef .tc main_v0) = _
  after_results_simp
  exact (W2_main_v0 m c).trans (V1_main_v0 m c)

/-- The activation scale: the first region's output over 127. -/
def kScale (c : Dev nD) : (⟨S1x1, .f32⟩ : BufTy).Contents (Elt Ideal) :=
  Host.divf (F := Ideal) (W2 m c (Proc.devRef .tc main_v1))
    (broadcastInDim S1x1 ![] bcast_S_S1x1 (constant (F := Ideal) S_ .f32 0x42FE0000#32))

theorem V11_main_v3 (c : Dev nD) : V11 m c main_v3 = kScale m c := by
  show StableHlo.after hostOps1_8 (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m c))))))))) (Proc.devRef .tc main_v3) = _
  after_results_simp <;> rfl

/-- The weights reach the second region as the reference's quantised weights, transposed. -/
theorem V11_main_v16 (c : Dev nD) :
    V11 m c main_v16 = truncf (F := Ideal) .bf16 (transpose S512x512 [1, 0]
      (Cert.ReferenceIdeal.Read.val_main_v19 (F := Ideal) (argW m c)) transposes_S512x512_S512x512_1_0) bitsLt_bf16_f32 := by
  show StableHlo.after hostOps1_8 (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m c))))))))) (Proc.devRef .tc main_v16) = _
  after_results_simp
  rw [W2_kept m c main_arg1 (by decide) (by decide)]
  rfl

/-- A bias quantised at the scale s between the 32-bit bounds: the reference's own operations. -/
def biasQ (b s : FVec Ideal S512 .f32) : FVec Ideal S512 .f32 :=
  mulf (F := Ideal) (φ := .f32) (minimumf (F := Ideal) (φ := .f32) (Cert.ReferenceIdeal.Read.val_main_call5_v4 (F := Ideal))
    (maximumf (F := Ideal) (φ := .f32) (Cert.ReferenceIdeal.Read.val_main_call5_v1 (F := Ideal))
      (Host.roundeven (F := Ideal) (φ := .f32) (Host.divf (F := Ideal) (φ := .f32) b s)))) s

/-- The reference's quantised bias is that function of the bias and the reference's combined scale. -/
theorem refBias_eq (x : (⟨S8x8192x512, .f32⟩ : BufTy).Contents (Elt Ideal)) (w : (⟨S512x512, .f32⟩ : BufTy).Contents (Elt Ideal))
    (b : (⟨S512, .f32⟩ : BufTy).Contents (Elt Ideal)) :
    Cert.ReferenceIdeal.Read.val_main_v26 (F := Ideal) x w b = biasQ b (Cert.ReferenceIdeal.Read.val_main_v22 (F := Ideal) x w) := rfl

/-- The combined scale as the kernel's host code forms it. -/
def kBiasScale (c : Dev nD) : FVec Ideal S512 .f32 :=
  mulf (F := Ideal) (φ := .f32) (broadcastInDim S512 ![] bcast_S_S512 (shapeCast S_ (kScale m c) shapeCasts_S1x1_S_))
    (shapeCast S512 (Cert.ReferenceIdeal.Read.val_main_v13 (F := Ideal) (argW m c)) shapeCasts_S512x1_S512)

/-- The bias reaches the second region quantised at the kernel's combined scale, as a row. -/
theorem V11_main_v25 (c : Dev nD) :
    V11 m c main_v25 = shapeCast S1x512 (biasQ (argB m c) (kBiasScale m c)) shapeCasts_S512_S1x512 := by
  show StableHlo.after hostOps1_8 (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 (W2 m c))))))))) (Proc.devRef .tc main_v25) = _
  after_results_simp
  rw [W2_kept m c main_arg1 (by decide) (by decide), W2_kept m c main_arg2 (by decide) (by decide)]
  rfl

/-! ## The two combined scales agree entry by entry -/

/-- A shape of one element has its one row-major position. -/
theorem rowMajor_val_of_numel_one {s : Shape} (h : s.numel = 1) (i : s.Idx) : (s.rowMajor i).val = 0 := by
  have := (s.rowMajor i).isLt
  omega

/-- If the kernel's activation scale is the reference's, so is the combined scale, at every row. -/
theorem kBiasScale_eq (c : Dev nD) (x : (⟨S8x8192x512, .f32⟩ : BufTy).Contents (Elt Ideal))
    (hs : kScale m c (ix2 0 0) = Cert.ReferenceIdeal.Read.val_main_v2 (F := Ideal) x ix0) :
    kBiasScale m c = Cert.ReferenceIdeal.Read.val_main_v22 (F := Ideal) x (argW m c) := by
  funext o
  rw [Cert.ReferenceIdeal.Read.val_main_v22_apply, Cert.ReferenceIdeal.Read.val_main_v21_apply,
    Cert.ReferenceIdeal.Read.val_main_v20_apply]
  have e0 : Cert.ReferenceIdeal.Read.idx_main_v20 (Cert.ReferenceIdeal.Read.idx_main_v22 o) = ix0 := funext fun a => a.elim0
  rw [e0, ← hs]
  show FloatOps.mulf (F := Ideal) (φ := .f32)
      (broadcastInDim S512 ![] bcast_S_S512 (shapeCast S_ (kScale m c : FVec Ideal S1x1 .f32) shapeCasts_S1x1_S_) o)
      (shapeCast S512 (Cert.ReferenceIdeal.Read.val_main_v13 (F := Ideal) (argW m c) : FVec Ideal S512x1 .f32)
        shapeCasts_S512x1_S512 o) = _
  refine congrArg₂ FloatOps.mulf ?_ ?_
  · exact (broadcastInDim_apply _ bcast_S_S512 _ o ix0 (fun a => a.elim0)).trans
      (shapeCast_apply _ shapeCasts_S1x1_S_ ix0 (ix2 0 0)
        ((rowMajor_val_of_numel_one (by decide) _).trans (rowMajor_val_of_numel_one (by decide) _).symm))
  · exact shapeCast_apply _ shapeCasts_S512x1_S512 o (Cert.ReferenceIdeal.Read.idx_main_v22 o)
      (by rewrite [Shape.rowMajor_val_two, Shape.rowMajor_val_one]; have h0 : (o 0).val < 512 := (o 0).isLt
          show ((o 0).val) / 1 * 1 + 0 = (o 0).val; omega)

/-! ## The result -/

/-- The second region's output array. -/
theorem W12_main_v26 (c : Dev nD) : W12 m c (Proc.devRef .tc main_v26) = (linDat (V11 m) c).arrAt 4 cfg1.N :=
  W12_arr m c 4

/-- The result is the second region's output reshaped. -/
theorem W13_main_v27 (c : Dev nD) :
    W13 m c (Proc.devRef .tc main_v27)
      = shapeCast S8x8192x512 (W12 m c (Proc.devRef .tc main_v26)) shapeCasts_S65536x512_S8x8192x512 := by
  show StableHlo.after hostOps2 (W12 m c) (Proc.devRef .tc main_v27) = _
  after_results_simp <;> rfl

end Cert.KernelIdeal.Hand

end
-- ==== Proof.LibMaxBounds.lean ====
/-
  A maximum read by its upper bounds.

  The maximum of a family, taken from minus infinity (the bottom element of the extended reals), lies below z exactly
  when every member of the family does: the universal property of a supremum. Three reductions are read this way, at the
  ideal values (a float is an extended real, the maximum of two floats is their max, and the f32 word 0xFF800000 is minus
  infinity): a maximum along the columns of a matrix [a, b], read at row r, ranges over the entries (r, k); a maximum
  along the rows of a one-column matrix [a, 1] ranges over the entries (p, 0); and a maximum over all three axes of an
  array [a, b, c] into a rank-zero result, taken from a rank-zero initial value, lies below z exactly when the initial
  value and every entry (i, j, k) do. General in the extents.
-/
import Idealize.ShloMosaic.Lib.Pipeline.Value
import Idealize.ShloMosaic.Lib.ValueIdx
import Idealize.ShloMosaic.PureOps.Ideal.Laws

namespace Cert.MaxBounds

open Idealize.ShloMosaic Idealize.ShloMosaic.ValueIdx

/-! ## The accumulator word -/

/-- The f32 word 0xFF800000 (sign set, exponent all ones, significand zero) is minus infinity, the bottom element. -/
theorem ofBits_negInf : Ideal.ofBits .f32 0xFF800000#32 = ⊥ := by
  rfl

/-- A fold of max from the bottom element lies below z exactly when every term does. -/
theorem fold_max_bot_le_iff {ι : Type} (s : Finset ι) (f : ι → EReal) (z : EReal) :
    s.fold max ⊥ f ≤ z ↔ ∀ k ∈ s, f k ≤ z :=
  (Finset.fold_max_le z).trans ⟨fun hk => hk.2, fun hk => ⟨bot_le, hk⟩⟩

/-! ## The reduced index with the coordinate put back -/

/-- Reducing the columns of [a, b]: the row index r with the column coordinate k put back is (r, k). -/
theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- Reducing the rows of [a, 1]: the one reduced index with the row coordinate p put back is (p, 0). -/
theorem lift_rows {a : ℕ} (h : (⟨2, ![a, 1]⟩ : Shape).Reduces [0] ⟨1, ![1]⟩)
    (p : Fin ((⟨2, ![a, 1]⟩ : Shape).size 0)) :
    h.lift (ix1 (0 : Fin 1)) p = ix2 (⟨p.val, p.isLt⟩ : Fin a) (0 : Fin 1) := by
  funext c; apply Fin.ext
  fin_cases c <;> rfl

/-- The shape [1] has the one index, 0. -/
theorem eq_ix1_zero (j : (⟨1, ![1]⟩ : Shape).Idx) : j = ix1 (0 : Fin 1) :=
  (eq_ix1 j).trans (congrArg ix1 (Subsingleton.elim (α := Fin 1) (j 0) 0))

/-! ## A kernel's maximum along one axis, from the accumulator at minus infinity -/

/-- The maximum along the columns of [a, b], at row r, lies below z exactly when every entry (r, k) of the row does. -/
theorem max_cols_le_iff {a b : ℕ} (src : FVec Ideal ⟨2, ![a, b]⟩ .f32) (h : (⟨2, ![a, b]⟩ : Shape).Reduces [1] ⟨1, ![a]⟩)
    (r : Fin a) (z : EReal) :
    multiReduction .maximumf [1] ⟨1, ![a]⟩ src 0xFF800000#32 h (.inl rfl) rfl (ix1 r) ≤ z
      ↔ ∀ k : Fin b, src (ix2 r k) ≤ z := by
  have e : multiReduction .maximumf [1] ⟨1, ![a]⟩ src 0xFF800000#32 h (.inl rfl) rfl (ix1 r)
      = (Finset.univ : Finset (Fin b)).fold max ⊥ (fun k => src (ix2 r k)) :=
    (Ideal.multiReduction_maximumf_single src 0xFF800000#32 h (.inl rfl) rfl (ix1 r)).trans
      (congrArg₂ (fun (i : EReal) f => (Finset.univ : Finset (Fin b)).fold max i f) ofBits_negInf
        (funext fun k => congrArg src (lift_cols h r k)))
  rw [e]
  exact (fold_max_bot_le_iff _ _ z).trans ⟨fun hk k => hk k (Finset.mem_univ k), fun hk k _ => hk k⟩

/-- The maximum along the rows of a one-column matrix [a, 1] lies below z exactly when every entry (p, 0) does. -/
theorem max_rows_le_iff {a : ℕ} (src : FVec Ideal ⟨2, ![a, 1]⟩ .f32) (h : (⟨2, ![a, 1]⟩ : Shape).Reduces [0] ⟨1, ![1]⟩)
    (z : EReal) :
    multiReduction .maximumf [0] ⟨1, ![1]⟩ src 0xFF800000#32 h (.inl rfl) rfl (ix1 0) ≤ z
      ↔ ∀ p : Fin a, src (ix2 p 0) ≤ z := by
  have e : multiReduction .maximumf [0] ⟨1, ![1]⟩ src 0xFF800000#32 h (.inl rfl) rfl (ix1 0)
      = (Finset.univ : Finset (Fin a)).fold max ⊥ (fun p => src (ix2 p 0)) :=
    (Ideal.multiReduction_maximumf_single src 0xFF800000#32 h (.inl rfl) rfl (ix1 0)).trans
      (congrArg₂ (fun (i : EReal) f => (Finset.univ : Finset (Fin a)).fold max i f) ofBits_negInf
        (funext fun p => congrArg src (lift_rows h p)))
  rw [e]
  exact (fold_max_bot_le_iff _ _ z).trans ⟨fun hk k => hk k (Finset.mem_univ k), fun hk k _ => hk k⟩

/-! ## The host's maximum over every axis -/

/-- The host's reduce with a maximum body over all three axes of [a, b, c], from a rank-zero initial value, lies below
    z exactly when the initial value and every entry (i, j, k) do. -/
theorem hostMax_all_le_iff {a b c : ℕ} (x : FVec Ideal ⟨3, ![a, b, c]⟩ .f32) (init : FVec Ideal ⟨0, ![]⟩ .f32)
    (h : (⟨3, ![a, b, c]⟩ : Shape).ReducesTo [0, 1, 2] ⟨0, ![]⟩) (hS : 0 < (⟨0, ![]⟩ : Shape).numel) (z : EReal) :
    Host.reduce FloatOps.maximumf x init h hS ix0 ≤ z
      ↔ init ix0 ≤ z ∧ ∀ (i : Fin a) (j : Fin b) (k : Fin c), x (ix3 i j k) ≤ z := by
  rw [Host.reduce_eq_fold FloatOps.maximumf x init h hS ix0]
  have e0 : Shape.Idx.first hS = ix0 := funext fun d => d.elim0
  rw [e0]
  refine (Finset.fold_max_le (s := Finset.univ.filter fun i => h.drop i = ix0) (f := x) (b := init ix0) (c := z)).trans
    (and_congr_right fun _ => ⟨fun hk i j k => hk _ (Finset.mem_filter.2 ⟨Finset.mem_univ _, eq_ix0 _⟩), fun hk q _ => ?_⟩)
  rw [eq_ix3 q]
  exact hk _ _ _

end Cert.MaxBounds
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.OnIdeal.MaxValue.lean ====
/-
  What each path of the max-reduction body stores, as values. At every grid point the body folds the maximum of |x| over
  its block of 4096 rows — along the lanes of each row, then along the rows — into the 1×1 scratch: against zero at the
  first point, against the scratch's previous contents at every later one; the last point also copies the scratch out.
  These are statements about the stored pieces, the same at every float instance.
-/
import proofs.«104424_j7687991459869_1_alg».proof.Proof.OnIdeal.MaxRegion
import proofs.«104424_j7687991459869_1_alg».proof.Proof.LibMaxBounds
import proofs.«104424_j7687991459869_1_alg».proof.Proof.LibColumnForms
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

theorem zeroOffsets : (![0, 0] : Fin 2 → Nat) = fun _ => 0 := funext fun a => by fin_cases a <;> rfl

/-! ## The stores each path leaves, as values (any float instance) -/

theorem runFirst_canon (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : atFirst i) (h2 : ¬atLast i) (x : Vec F S4096x512 .f32) :
    View.canon (runFirst (F := F) c i arg1 harg1 arg2 harg2 arg3 harg3 h1 h2 x).1 = k0_pay2 x (k0_pay1 (F := F)) := by
  unfold runFirst; dsimp only; sl_unfold_words
  refine (View.canon_cons_unit_zero (S := S1x1) zeroOffsets _ _ _).trans ?_
  simp only [View.readAt_eq_ld, harg1.read_unread, View.ld_unit_zero (S := S4096x512) zeroOffsets]
  exact congrArg (k0_pay2 x) (View.readCov_unit_zero (S := S1x1) _ zeroOffsets _ _)

theorem runMid_canon (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : ¬atLast i) (x : Vec F S4096x512 .f32) (a : Vec F S1x1 .f32) :
    View.canon (runMid (F := F) c i arg1 harg1 arg2 harg2 arg3 harg3 h1 h2 x a).1 = k0_pay2 x a := by
  unfold runMid; dsimp only; sl_unfold_words
  refine (View.canon_cons_unit_zero (S := S1x1) zeroOffsets _ _ _).trans ?_
  simp only [View.readAt_eq_ld, harg1.read_unread, harg3.read_unread, View.ld_unit_zero (S := S4096x512) zeroOffsets, View.ld_unit_zero (S := S1x1) zeroOffsets]

theorem runLast_canonAcc (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i) (x : Vec F S4096x512 .f32) (a : Vec F S1x1 .f32) :
    View.canon (runLast (F := F) c i arg1 harg1 arg2 harg2 arg3 harg3 h1 h2 x a).2.1 = k0_pay2 x a := by
  unfold runLast; dsimp only; sl_unfold_words
  refine (View.canon_cons_unit_zero (S := S1x1) zeroOffsets _ _ _).trans ?_
  simp only [View.readAt_eq_ld, harg1.read_unread, harg3.read_unread, View.ld_unit_zero (S := S4096x512) zeroOffsets, View.ld_unit_zero (S := S1x1) zeroOffsets]

theorem runLast_canonOut (c : Dev nD) (i : grid0.Coords) (arg1 : Memref sig .tc .vmem S4096x512 .f32) (harg1 : arg1.IsWhole) (arg2 : Memref sig .tc .vmem S1x1 .f32) (harg2 : arg2.IsWhole) (arg3 : Memref sig .tc .vmem S1x1 .f32) (harg3 : arg3.IsWhole) (h1 : ¬atFirst i) (h2 : atLast i) (x : Vec F S4096x512 .f32) (a : Vec F S1x1 .f32) :
    View.canon (runLast (F := F) c i arg1 harg1 arg2 harg2 arg3 harg3 h1 h2 x a).1 = k0_pay2 x a := by
  unfold runLast; dsimp only; sl_unfold_words
  refine (View.canon_cons_unit_zero (S := S1x1) zeroOffsets _ _ _).trans ?_
  simp only [View.readAt_eq_ld, harg1.read_unread, harg3.read_unread, View.ld_unit_zero (S := S4096x512) zeroOffsets, View.ld_unit_zero (S := S1x1) zeroOffsets]
  exact View.readCov_unit_zero (S := S1x1) _ zeroOffsets _ _

section
variable (V : (c : Dev nD) → (b : Ref sig .tc) → Buf (Elt F) ((c : Thread nD τ).loc b))

/-- The first point leaves the block's maximum folded into the reset value. -/
theorem accAt_first_val (c : Dev nD) (t : Fin cfg0.N) (h0 : t.val = 0) :
    accAt V c t.val t.isLt = k0_pay2 (maxBlock V c 0 t) (k0_pay1 (F := F)) :=
  (accAt_first V c t h0).trans ((View.read_writes_eq_canon _ _ _ (coverFirst c (grid0.coords t) (xBuf t) (xBufWhole t) (outBuf t) (outBufWhole t) accBuf (Memref.isWhole_whole _) _ _ _)).trans
    (runFirst_canon c (grid0.coords t) (xBuf t) (xBufWhole t) (outBuf t) (outBufWhole t) accBuf (Memref.isWhole_whole _) _ _ (maxBlock V c 0 t)))

/-- Every later point folds its block's maximum into what the point before left. -/
theorem accAt_later_val (c : Dev nD) (t : Fin cfg0.N) (h0 : t.val ≠ 0) :
    accAt V c t.val t.isLt = k0_pay2 (maxBlock V c 0 t) (accAt V c (t.val - 1) (Nat.lt_of_le_of_lt (Nat.sub_le _ _) t.isLt)) := by
  by_cases hl : t.val = 15
  · exact (accAt_last V c t h0 hl).trans ((View.read_writes_eq_canon _ _ _ (coverLastAcc c (grid0.coords t) (xBuf t) (xBufWhole t) (outBuf t) (outBufWhole t) accBuf (Memref.isWhole_whole _) _ _ _ _)).trans
      (runLast_canonAcc c (grid0.coords t) (xBuf t) (xBufWhole t) (outBuf t) (outBufWhole t) accBuf (Memref.isWhole_whole _) _ _ (maxBlock V c 0 t) _))
  · exact (accAt_mid V c t h0 hl).trans ((View.read_writes_eq_canon _ _ _ (coverMid c (grid0.coords t) (xBuf t) (xBufWhole t) (outBuf t) (outBufWhole t) accBuf (Memref.isWhole_whole _) _ _ _ _)).trans
      (runMid_canon c (grid0.coords t) (xBuf t) (xBufWhole t) (outBuf t) (outBufWhole t) accBuf (Memref.isWhole_whole _) _ _ (maxBlock V c 0 t) _))

/-- The last point's output block is the scratch it has just stored. -/
theorem outAt_last_val (c : Dev nD) (t : Fin cfg0.N) (h0 : t.val ≠ 0) (hl : t.val = 15) :
    outAt V c t = accAt V c t.val t.isLt :=
  ((outAt_last V c t h0 hl).trans ((View.read_writes_eq_canon _ _ _ (coverLastOut c (grid0.coords t) (xBuf t) (xBufWhole t) (outBuf t) (outBufWhole t) accBuf (Memref.isWhole_whole _) _ _ _ _)).trans
    (runLast_canonOut c (grid0.coords t) (xBuf t) (xBufWhole t) (outBuf t) (outBufWhole t) accBuf (Memref.isWhole_whole _) _ _ (maxBlock V c 0 t) _))).trans (accAt_later_val V c t h0).symm

end

end Cert.KernelIdeal.Hand

end
-- ==== Proof.OnIdeal.MaxExact.lean ====
/-
  What the max-reduction region leaves in its 1×1 output, at the exact values. Each grid point folds the maximum of
  |x| over its block of 4096 rows into the scratch: first along the lanes of each row, then along the rows, then against
  the scratch's previous value — zero at the first point. A maximum is known by its upper bounds, so after point n the
  scratch lies below z exactly when 0 and every |entry| of the blocks 0 … n do; the last point copies the scratch out.
  The 16 blocks are the 65536 rows of the activations, so the output is the maximum of 0 and every |entry|.
  Here |v| is written max v (-v), which is what the absolute value of an extended real is.
-/
import proofs.«104424_j7687991459869_1_alg».proof.Proof.OnIdeal.MaxValue

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

/-! ## The nested maxima, by their upper bounds -/

/-- The lanes' maximum of |x| in each row, then the rows' maximum, then the maximum with a 1×1 accumulator: below z exactly
    when the accumulator and every |entry| are. -/
theorem nestedMax_le_iff {a b : ℕ} (x : FVec Ideal ⟨2, ![a, b]⟩ .f32) (acc : FVec Ideal ⟨2, ![1, 1]⟩ .f32)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc' : (⟨1, ![1]⟩ : Shape).ShapeCasts ⟨2, ![1, 1]⟩) (z : EReal) :
    maximumf acc (shapeCast ⟨2, ![1, 1]⟩ (multiReduction .maximumf [0] ⟨1, ![1]⟩
        (shapeCast ⟨2, ![a, 1]⟩ (multiReduction .maximumf [1] ⟨1, ![a]⟩ (absf x) 0xFF800000#32 h1 (.inl rfl) rfl) hc)
        0xFF800000#32 h0 (.inl rfl) rfl) hc') (ix2 0 0) ≤ z
      ↔ acc (ix2 0 0) ≤ z ∧ ∀ (p : Fin a) (q : Fin b), max (x (ix2 p q)) (-(x (ix2 p q))) ≤ z := by
  show max (acc (ix2 0 0)) (shapeCast ⟨2, ![1, 1]⟩ _ hc' (ix2 0 0)) ≤ z ↔ _
  rw [max_le_iff, Cert.ColumnForms.shapeCast_a_a1_apply (a := 1) _ hc' 0 0, Cert.MaxBounds.max_rows_le_iff]
  refine and_congr Iff.rfl (forall_congr' fun p => ?_)
  rw [Cert.ColumnForms.shapeCast_a_a1_apply _ hc p 0, Cert.MaxBounds.max_cols_le_iff]
  exact Iff.rfl

/-- The reset value is zero. -/
theorem pay1_entry : k0_pay1 (F := Ideal) (ix2 0 0) = 0 := by
  unfold k0_pay1
  simp only [shapeCast_self]
  exact Ideal.ofBits_zero_f32

/-- One point's stored value lies below z exactly when the previous scratch and every |entry| of the block do. -/
theorem pay2_le_iff (x : Vec Ideal S4096x512 .f32) (a : Vec Ideal S1x1 .f32) (z : EReal) :
    k0_pay2 x a (ix2 0 0) ≤ z ↔ a (ix2 0 0) ≤ z ∧ ∀ (p : Fin 4096) (q : Fin 512), max (x (ix2 p q)) (-(x (ix2 p q))) ≤ z := by
  unfold k0_pay2
  simp only [shapeCast_self]
  exact nestedMax_le_iff x a _ _ _ _ z

/-! ## The fold over the grid -/

section
variable (V : (c : Dev nD) → (b : Ref sig .tc) → Buf (Elt Ideal) ((c : Thread nD τ).loc b))

/-- Entry (p, q) of the block of activations that point t stages. -/
def blockEntry (c : Dev nD) (t : Fin cfg0.N) (p : Fin 4096) (q : Fin 512) : EReal := maxBlock V c 0 t (ix2 p q)

/-- Entry (r, q) of the activations as the region finds them. -/
def actEntry (c : Dev nD) (r : Fin 65536) (q : Fin 512) : EReal := V c main_v0 (ix2 r q)

/-- The scratch's one entry after point n. -/
def accEntry (c : Dev nD) (n : ℕ) (hn : n < cfg0.N) : EReal := accAt V c n hn (ix2 0 0)

/-- The output array's one entry after the region. -/
def maxOutEntry (c : Dev nD) : EReal := (maxDat V c).arrAt 1 cfg0.N (ix2 0 0)

/-- What a point stores into the scratch, given the scratch's previous contents: its one entry. -/
def stepVal (c : Dev nD) (t : Fin cfg0.N) (a : Vec Ideal S1x1 .f32) : EReal := k0_pay2 (maxBlock V c 0 t) a (ix2 0 0)

/-- One point's stored value lies below z exactly when the previous scratch and every |entry| of the point's block do. -/
theorem stepVal_le_iff (c : Dev nD) (t : Fin cfg0.N) (a : Vec Ideal S1x1 .f32) (z : EReal) :
    stepVal V c t a ≤ z ↔ a (ix2 0 0) ≤ z ∧ ∀ (p : Fin 4096) (q : Fin 512),
      max (blockEntry V c t p q) (-(blockEntry V c t p q)) ≤ z :=
  pay2_le_iff (maxBlock V c 0 t) a z

/-- The scratch after the first point. -/
theorem accEntry_zero (c : Dev nD) (hn : 0 < cfg0.N) : accEntry V c 0 hn = stepVal V c ⟨0, hn⟩ (k0_pay1 (F := Ideal)) :=
  congrFun (accAt_first_val V c ⟨0, hn⟩ rfl) (ix2 0 0)

/-- The scratch after a later point. -/
theorem accEntry_succ (c : Dev nD) (n : ℕ) (hn : n + 1 < cfg0.N) :
    accEntry V c (n + 1) hn = stepVal V c ⟨n + 1, hn⟩ (accAt V c n (Nat.lt_of_succ_lt hn)) :=
  congrFun (accAt_later_val V c ⟨n + 1, hn⟩ (Nat.succ_ne_zero n)) (ix2 0 0)

/-- After point n the scratch lies below z exactly when 0 and every |entry| of the blocks 0 … n do. -/
theorem accEntry_le_iff (c : Dev nD) (z : EReal) : ∀ (n : ℕ) (hn : n < cfg0.N),
    accEntry V c n hn ≤ z ↔ 0 ≤ z ∧ ∀ t : Fin cfg0.N, t.val ≤ n → ∀ (p : Fin 4096) (q : Fin 512),
      max (blockEntry V c t p q) (-(blockEntry V c t p q)) ≤ z
  | 0, hn => by
    rw [accEntry_zero V c hn, stepVal_le_iff, pay1_entry]
    refine and_congr Iff.rfl ⟨fun h t ht => ?_, fun h => h ⟨0, hn⟩ (Nat.le_refl _)⟩
    have : t = ⟨0, hn⟩ := Fin.ext (Nat.le_zero.mp ht)
    subst this; exact h
  | n + 1, hn => by
    rw [accEntry_succ V c n hn, stepVal_le_iff]
    have ih : accAt V c n (Nat.lt_of_succ_lt hn) (ix2 0 0) ≤ z ↔ _ := accEntry_le_iff c z n (Nat.lt_of_succ_lt hn)
    constructor
    · rintro ⟨hprev, hnew⟩
      obtain ⟨hz, hall⟩ := ih.mp hprev
      refine ⟨hz, fun t ht => ?_⟩
      by_cases hlt : t.val ≤ n
      · exact hall t hlt
      · have : t = ⟨n + 1, hn⟩ := Fin.ext (by show t.val = n + 1; omega)
        subst this; exact hnew
    · rintro ⟨hz, hall⟩
      exact ⟨ih.mpr ⟨hz, fun t ht => hall t (by omega)⟩, hall ⟨n + 1, hn⟩ (Nat.le_refl _)⟩

/-- The input window's block moves with the point along the rows; the output window stays at its one block. -/
theorem maxIdx : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Entry (p, q) of block t is entry (4096 t + p, q) of the array. -/
theorem blockEntry_eq (c : Dev nD) (t : Fin cfg0.N) (p : Fin 4096) (q : Fin 512) (r : Fin 65536) (hr : r.val = 4096 * t.val + p.val) :
    blockEntry V c t p q = actEntry V c r q := by
  obtain ⟨e0, e1, -, -⟩ := maxIdx t
  show V c main_v0 (((cfg0.win 0).blk t).view.emb (ix2 p q)) = V c main_v0 (ix2 r q)
  refine congrArg _ (funext fun a => Fin.ext ?_)
  match a with
  | ⟨0, _⟩ => show win0_0.index t (0 : Fin 2) * 4096 + 1 * p.val = r.val; omega
  | ⟨1, _⟩ => show win0_0.index t (1 : Fin 2) * 512 + 1 * q.val = q.val; omega

/-- After the last point the scratch lies below z exactly when 0 and every |entry| of the whole array do. -/
theorem accFinal_le_iff (c : Dev nD) (z : EReal) (h15 : 15 < cfg0.N) :
    accEntry V c 15 h15 ≤ z ↔ 0 ≤ z ∧ ∀ (r : Fin 65536) (q : Fin 512),
      max (actEntry V c r q) (-(actEntry V c r q)) ≤ z := by
  refine (accEntry_le_iff V c z 15 h15).trans (and_congr Iff.rfl ⟨fun h r q => ?_, fun h t _ p q => ?_⟩)
  · have hr : r.val < 65536 := r.isLt
    have hN : cfg0.N = 16 := N_0
    have e := blockEntry_eq V c ⟨r.val / 4096, by rw [hN]; omega⟩ ⟨r.val % 4096, Nat.mod_lt _ (by norm_num)⟩ q r
      (by show r.val = 4096 * (r.val / 4096) + r.val % 4096; omega)
    rw [← e]
    exact h _ (by show r.val / 4096 ≤ 15; omega) _ _
  · have ht : t.val < 16 := lt_of_lt_of_eq t.isLt N_0
    have hp : p.val < 4096 := p.isLt
    rw [blockEntry_eq V c t p q ⟨4096 * t.val + p.val, by omega⟩ rfl]
    exact h _ _

/-! ## The output array after the region -/

/-- The scratch after point n depends on n only. -/
theorem accAt_congr (c : Dev nD) {n n' : ℕ} (hn : n < cfg0.N) (hn' : n' < cfg0.N) (e : n = n') :
    accAt V c n hn = accAt V c n' hn' := by
  subst e; rfl

/-- The 1×1 output array ends at the scratch's last contents. -/
theorem maxFinal (c : Dev nD) (h15 : 15 < cfg0.N) :
    maxOutEntry V c = accEntry V c 15 h15 := by
  have hG : ∀ t, (cfg0.win 1).flush t = true →
      (maxDat V c).flushed 1 t = ((cfg0.win 1).blk t).view.read (Elt Ideal) (accAt V c 15 h15) := by
    intro t hf
    have ht15 : t.val = 15 := by
      have := (flush0_1 t).mp hf
      have ht : t.val < 16 := lt_of_lt_of_eq t.isLt N_0
      omega
    obtain ⟨-, -, e0, e1⟩ := maxIdx t
    show (cfg0.win 1).cut (grid0.coords t) ((maxDat V c).after 1 t) = _
    rw [maxAfter1, outAt_last_val V c t (by omega) ht15, accAt_congr V c t.isLt h15 ht15]
    funext j
    show accAt V c 15 h15 j = accAt V c 15 h15 (((cfg0.win 1).blk t).view.emb j)
    refine congrArg _ (funext fun a => Fin.ext ?_)
    match a with
    | ⟨0, _⟩ => show (j 0).val = win0_1.index t (0 : Fin 2) * 1 + 1 * (j 0).val; omega
    | ⟨1, _⟩ => show (j 1).val = win0_1.index t (1 : Fin 2) * 1 + 1 * (j 1).val; omega
  have hcover : ∀ i : S1x1.Idx, ∃ t : Fin cfg0.N, (cfg0.win 1).flush t = true ∧ i ∈ ((cfg0.win 1).blk t).view.set := by
    intro i
    obtain ⟨t, ht⟩ : ∃ t : Fin cfg0.N, t.val = 15 := ⟨⟨15, h15⟩, rfl⟩
    obtain ⟨-, -, e0, e1⟩ := maxIdx t
    refine ⟨t, (flush0_1 t).mpr (by omega), ?_⟩
    show i ∈ ((View.whole main_v1).slice (win0_1.rect t)).set
    rw [View.set_slice_whole, Rect.mem_set_unit]
    intro a
    have hi0 : (i 0).val < 1 := (i 0).isLt
    have hi1 : (i 1).val < 1 := (i 1).isLt
    match a with
    | ⟨0, _⟩ => show win0_1.index t (0 : Fin 2) * 1 ≤ (i 0).val ∧ (i 0).val < win0_1.index t (0 : Fin 2) * 1 + 1; omega
    | ⟨1, _⟩ => show win0_1.index t (1 : Fin 2) * 1 ≤ (i 1).val ∧ (i 1).val < win0_1.index t (1 : Fin 2) * 1 + 1; omega
  exact congrFun ((maxDat V c).arrAt_eq_of_cover 1 _ hG hcover) (ix2 0 0)

/-- THE REGION'S RESULT: the 1×1 output lies below z exactly when 0 and every |entry| of the activations do. -/
theorem maxResult_le_iff (c : Dev nD) (z : EReal) :
    maxOutEntry V c ≤ z ↔ 0 ≤ z ∧ ∀ (r : Fin 65536) (q : Fin 512),
      max (actEntry V c r q) (-(actEntry V c r q)) ≤ z := by
  have h15 : 15 < cfg0.N := by rw [show cfg0.N = 16 from N_0]; norm_num
  rw [maxFinal V c h15]
  exact accFinal_le_iff V c z h15

end

end Cert.KernelIdeal.Hand

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.OnIdeal.Scale.lean ====
/-
  The activation scale is the reference's.

  The first region leaves in its 1×1 output the maximum of 0 and every |entry| of the activations; the reference takes
  the maximum of every |entry| from minus infinity. The two have the same upper bounds: |v| = max v (-v) is never
  negative, and there is an entry, so any z above every |entry| is above 0. Two extended reals with the same upper bounds
  are equal. Row r = 8192 p + s of the reshaped activations is row s of matrix p of the argument, so the two families of
  entries are the same. Both sides then divide by the same word, 127.
-/
import proofs.«104424_j7687991459869_1_alg».proof.Proof.OnIdeal.HostReads
import proofs.«104424_j7687991459869_1_alg».proof.Proof.OnIdeal.MaxExact
import proofs.«104424_j7687991459869_1_alg».proof.Proof.LibMaxBounds
import proofs.«104424_j7687991459869_1_alg».proof.Proof.LibAxisReads

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx

variable (m : (ℓ : Loc nD τ sig) → Buf (Elt Ideal) ℓ)

/-- An absolute value is never negative. -/
theorem zero_le_abs (v : EReal) : 0 ≤ max v (-v) := by
  rcases le_total 0 v with h | h
  · exact le_max_of_le_left h
  · exact le_max_of_le_right (by simpa using EReal.neg_le_neg_iff.mpr h)

/-- Entry (r, q) of the reshaped activations is entry (p, s, q) of the argument when r = 8192 p + s. -/
theorem actEntry_eq (c : Dev nD) (r : Fin 65536) (q : Fin 512) (p : Fin 8) (s : Fin 8192) (hr : r.val = p.val * 8192 + s.val) :
    actEntry (V1 m) c r q = argX m c (ix3 p s q) := by
  show V1 m c main_v0 (ix2 r q) = _
  rw [V1_main_v0]
  exact Cert.AxisReads.shapeCast_stack_tall_apply (argX m c) shapeCasts_S8x8192x512_S65536x512 r p s q hr

/-- The first region's output is the reference's maximum of |x|. -/
theorem maxOut_eq (c : Dev nD) :
    maxOutEntry (V1 m) c = Cert.ReferenceIdeal.Read.val_main_v1 (F := Ideal) (argX m c) ix0 := by
  refine eq_of_forall_ge_iff fun z => ?_
  refine (maxResult_le_iff (V1 m) c z).trans ?_
  refine Iff.trans ?_ (Cert.MaxBounds.hostMax_all_le_iff (a := 8) (b := 8192) (c := 512)
    (Cert.ReferenceIdeal.Read.val_main_v0 (F := Ideal) (argX m c)) (Cert.ReferenceIdeal.Read.val_main_cst (F := Ideal)) _ _ z).symm
  constructor
  · rintro ⟨hz, h⟩
    refine ⟨?_, fun i j k => ?_⟩
    · show Ideal.ofBits .f32 0xFF800000#32 ≤ z
      rw [Cert.MaxBounds.ofBits_negInf]; exact bot_le
    · have hi := i.isLt
      have hj := j.isLt
      have e := h ⟨i.val * 8192 + j.val, by omega⟩ k
      rw [actEntry_eq m c _ k i j rfl] at e
      exact e
  · rintro ⟨-, h⟩
    refine ⟨le_trans (zero_le_abs _) (h 0 0 0), fun r q => ?_⟩
    have hr := r.isLt
    rw [actEntry_eq m c r q ⟨r.val / 8192, by omega⟩ ⟨r.val % 8192, by omega⟩
      (by show r.val = r.val / 8192 * 8192 + r.val % 8192; omega)]
    exact h _ _ _

/-- THE SCALE: the kernel's activation scale is the reference's. -/
theorem kScale_eq (c : Dev nD) :
    kScale m c (ix2 0 0) = Cert.ReferenceIdeal.Read.val_main_v2 (F := Ideal) (argX m c) ix0 := by
  have e1 : W2 m c (Proc.devRef .tc main_v1) (ix2 0 0) = Cert.ReferenceIdeal.Read.val_main_v1 (F := Ideal) (argX m c) ix0 :=
    (congrFun (W2_main_v1 m c) (ix2 0 0)).trans (maxOut_eq m c)
  have e2 : broadcastInDim S1x1 ![] bcast_S_S1x1 (constant (F := Ideal) S_ .f32 0x42FE0000#32) (ix2 0 0)
      = Cert.ReferenceIdeal.Read.val_main_cst_0 (F := Ideal) ix0 :=
    broadcastInDim_apply _ bcast_S_S1x1 _ (ix2 0 0) ix0 (fun a => a.elim0)
  show FloatOps.hostDivf (W2 m c (Proc.devRef .tc main_v1) (ix2 0 0))
      (broadcastInDim S1x1 ![] bcast_S_S1x1 (constant (F := Ideal) S_ .f32 0x42FE0000#32) (ix2 0 0))
    = FloatOps.hostDivf (Cert.ReferenceIdeal.Read.val_main_v1 (F := Ideal) (argX m c) ix0)
        (Cert.ReferenceIdeal.Read.val_main_cst_0 (F := Ideal) ix0)
  rw [e1, e2]

end Cert.KernelIdeal.Hand

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibSiluDense.lean ====
/-
  A dense layer and SiLU, read entry by entry.

  A dense layer sends a row x of K entries to the row whose entry o is (sum over k of x k * w k o) + bias o. A kernel
  computes it for a block of rows as a matrix product from the zero accumulator plus a bias row [1, N] broadcast
  along the rows: entry (p, o) of the result is the dense layer of row p of the left operand, at o (kernel_dense),
  row by row of the left operand and column by column of the weights.

  SiLU is x * logistic x. A kernel applies the logistic function as one operation; jax on the host spells it
  1 / (1 + exp (-x)) with the constant one written as the f32 word 0x3F800000. On the extended reals the two are one
  function, because the logistic function IS that quotient there, at the infinities too (silu_host).

  General in the extents and in the operands' float formats.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import proofs.«104424_j7687991459869_1_alg».proof.Proof.LibMatmulPlain

noncomputable section

open scoped BigOperators

namespace Cert.SiluDense

open Idealize.ShloMosaic Idealize.ShloMosaic.ValueIdx

/-- SiLU on the extended reals. -/
def silu (x : EReal) : EReal := x * Ideal.logistic x

/-- One output of a dense layer: (sum over k of x k * w k o) + bias o. -/
def dense {K N : ℕ} (x : Fin K → EReal) (w : Fin K → Fin N → EReal) (bias : Fin N → EReal) (o : Fin N) : EReal :=
  (∑ k, x k * w k o) + bias o

/-- A kernel's matrix product from the zero accumulator plus a bias row broadcast along the rows, read at (p, o): the
    dense layer of row p of the left operand, at o. -/
theorem kernel_dense {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![M, K]⟩ φ₁) (w : FVec Ideal ⟨2, ![K, N]⟩ φ₂)
    (bias : FVec Ideal ⟨2, ![1, N]⟩ .f32) (hbc : (⟨2, ![1, N]⟩ : Shape).Broadcasts ⟨2, ![M, N]⟩)
    (p : Fin M) (o : Fin N) :
    addf (matmul d prec x w (constant (F := Ideal) ⟨2, ![M, N]⟩ .f32 0x00000000#32))
        (broadcastTo ⟨2, ![M, N]⟩ bias hbc) (ix2 p o)
      = dense (fun k => x (ix2 p k)) (fun k o => w (ix2 k o)) (fun o => bias (ix2 (0 : Fin 1) o)) o := by
  show FloatOps.matmul d prec x w (constant (F := Ideal) ⟨2, ![M, N]⟩ .f32 0x00000000#32) (ix2 p o)
      + broadcastTo ⟨2, ![M, N]⟩ bias hbc (ix2 p o) = _
  rw [Cert.MatmulPlain.matmul_plain_apply d hlc hrc hln hrn hlb hrb, broadcastTo_1b_ab_apply]
  rfl

/-- A kernel's x * logistic x, read at an index. -/
theorem silu_kernel {s : Shape} (x : FVec Ideal s .f32) (i : s.Idx) : mulf x (logistic x) i = silu (x i) := rfl

/-- The host's spelling x * (1 / (1 + exp (-x))), the ones written as f32 words, is SiLU. -/
theorem silu_host (x : Ideal .f32) :
    FloatOps.mulf x (FloatOps.hostDivf (FloatOps.ofBits .f32 0x3F800000#32)
        (FloatOps.addf (FloatOps.ofBits .f32 0x3F800000#32) (FloatOps.hostUnary .exp (FloatOps.hostNegf x))))
      = silu x := by
  have h1 : (FloatOps.ofBits (F := Ideal) .f32 0x3F800000#32) = (1 : Ideal .f32) :=
    IdealRules.sign_bit.ideal_onePat .f32
  rw [h1]
  rfl

end Cert.SiluDense

end
-- ==== Proof.OnIdeal.LinearValue.lean ====
/-
  What the fused matmul region leaves in its output array, at the exact values. The body quantises each entry of its
  2048-row block of activations — the quotient by the scale rounded to the nearest integer, ties to even, clipped to
  [-128, 127], times the scale —, multiplies by the weight matrix from the zero accumulator and adds the bias row; a
  change of float format is the identity. So entry (r, o) of the output is
      (sum over k of quantize (x (r, k)) * w (k, o)) + bias (0, o),
  a function of row r of the activations only: grid point t writes rows 2048 t … 2048 t + 2047, and the 32 blocks
  tile the 65536 rows.
-/
import proofs.«104424_j7687991459869_1_alg».proof.Proof.OnIdeal.LinearRegion
import proofs.«104424_j7687991459869_1_alg».proof.Proof.LibSiluDense
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

/-- One entry fake-quantised at scale `s` between `lo` and `hi`. -/
def quantize (lo hi s x : EReal) : EReal :=
  min hi (max lo (Ideal.liftRound Ideal.roundHalfEven (Ideal.div x s))) * s

/-- The body's clip bounds, as the float words it spells: -128.0 and 127.0. -/
abbrev loWord : EReal := Ideal.ofBits .f32 0xC3000000#32
abbrev hiWord : EReal := Ideal.ofBits .f32 0x42FE0000#32

/-- The region's output as one function of its four operand arrays. -/
def linear (X : S65536x512.Idx → EReal) (Wt : S512x512.Idx → EReal) (B : S1x512.Idx → EReal) (S : S1x1.Idx → EReal) :
    S65536x512.Idx → EReal :=
  fun i => (∑ k : Fin 512, quantize loWord hiWord (S (ix2 0 0)) (X (ix2 (i 0) k)) * Wt (ix2 k (i 1))) + B (ix2 0 (i 1))

theorem hz2 : (![0, 0] : Fin 2 → Nat) = fun _ => 0 := funext fun a => by fin_cases a <;> rfl

/-- The scalar the body extracts from the 1×1 scale block is its one entry. -/
theorem extract_scale (s : S1x1.Idx → EReal) (h : ∀ a, (![0, 0] : Fin 2 → Nat) a < S1x1.size a) :
    extractAt ![0, 0] s h = s (ix2 0 0) :=
  congrArg s (funext fun a => Fin.ext (by match a with | ⟨0, _⟩ => rfl | ⟨1, _⟩ => rfl))

/-- The body's stored value at (p, q): the quantised row p against column q of the weights, plus the bias. -/
theorem linPay_apply (s : Vec Ideal S1x1 .f32) (x : Vec Ideal S2048x512 .f32) (w : Vec Ideal S512x512 .bf16) (b : Vec Ideal S1x512 .f32)
    (p : Fin 2048) (q : Fin 512) :
    k1_pay1 s x w b (ix2 p q)
      = (∑ k : Fin 512, quantize loWord hiWord (s (ix2 0 0)) (x (ix2 p k)) * w (ix2 k q)) + b (ix2 0 q) := by
  unfold k1_pay1
  refine (Cert.SiluDense.kernel_dense dot_S2048x512_S512x512_S2048x512_1_0_0_1_n_n rfl rfl rfl rfl rfl rfl none _ _ _ _ p q).trans ?_
  unfold Cert.SiluDense.dense
  simp only [shapeCast_self, extract_scale]
  rfl

/-- The same at any index of the block, against arrays the blocks are cut from: entry j of the stored block is entry i
    of `linear` whenever row (j 0) of the block is row (i 0) of X and the columns agree. -/
theorem linOut_entry (s : Vec Ideal S1x1 .f32) (x : Vec Ideal S2048x512 .f32) (w : Vec Ideal S512x512 .bf16) (b : Vec Ideal S1x512 .f32)
    (X : S65536x512.Idx → EReal) (Wt : S512x512.Idx → EReal) (B : S1x512.Idx → EReal) (S : S1x1.Idx → EReal)
    (j : S2048x512.Idx) (i : S65536x512.Idx)
    (hx : ∀ k : Fin 512, x (ix2 (j 0) k) = X (ix2 (i 0) k)) (hw : ∀ k : Fin 512, w (ix2 k (j 1)) = Wt (ix2 k (i 1)))
    (hb : b (ix2 0 (j 1)) = B (ix2 0 (i 1))) (hs : s (ix2 0 0) = S (ix2 0 0)) :
    k1_pay1 s x w b j = linear X Wt B S i := by
  refine ((congrArg (k1_pay1 s x w b) (eq_ix2 j)).trans (linPay_apply s x w b (j 0) (j 1))).trans ?_
  unfold linear
  rw [hs, hb]
  exact congrArg (· + B (ix2 0 (i 1))) (Finset.sum_congr rfl fun k _ => by rw [hx k, hw k])

variable (V : (c : Dev nD) → (b : Ref sig .tc) → Buf (Elt Ideal) ((c : Thread nD τ).loc b))

/-- The printed index maps over the 32 points: the activation and output blocks move with the point along the rows; the
    weights, the bias and the scale stay put. -/
theorem linIdx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `linear` of the four arrays as the region finds them. -/
theorem linFlushed (c : Dev nD) (t : Fin cfg1.N) :
    (linDat V c).flushed 4 t
      = ((cfg1.win 4).blk t).view.read (Elt Ideal) (linear (V c main_v0) (V c main_v16) (V c main_v25) (V c main_v3)) := by
  show (cfg1.win 4).cut (grid1.coords t) ((linDat V c).after 4 t) = _
  rw [linAfter4]
  unfold linOut
  rw [View.canon_unit_zero hz2]
  simp only [View.ld_unit_zero (S := S2048x512) hz2, View.ld_unit_zero (S := S512x512) hz2,
    View.ld_unit_zero (S := S1x512) hz2, View.ld_unit_zero (S := S1x1) hz2]
  obtain ⟨e00, e01, e10, e11, e20, e21, e30, e31, e40, e41⟩ := linIdx t
  funext j
  show k1_pay1 (linBlock V c 3 t) (linBlock V c 0 t) (linBlock V c 1 t) (linBlock V c 2 t) j
    = linear (V c main_v0) (V c main_v16) (V c main_v25) (V c main_v3) (((cfg1.win 4).blk t).view.emb j)
  refine linOut_entry _ _ _ _ _ _ _ _ j _ (fun k => ?_) (fun k => ?_) ?_ ?_
  · show V c main_v0 (((cfg1.win 0).blk t).view.emb (ix2 (j 0) k)) = _
    refine congrArg _ (funext fun a => Fin.ext ?_)
    match a with
    | ⟨0, _⟩ => show win1_0.index t (0 : Fin 2) * 2048 + 1 * (j 0).val = win1_4.index t (0 : Fin 2) * 2048 + 1 * (j 0).val; omega
    | ⟨1, _⟩ => show win1_0.index t (1 : Fin 2) * 512 + 1 * k.val = k.val; omega
  · show V c main_v16 (((cfg1.win 1).blk t).view.emb (ix2 k (j 1))) = _
    refine congrArg _ (funext fun a => Fin.ext ?_)
    match a with
    | ⟨0, _⟩ => show win1_1.index t (0 : Fin 2) * 512 + 1 * k.val = k.val; omega
    | ⟨1, _⟩ => show win1_1.index t (1 : Fin 2) * 512 + 1 * (j 1).val = win1_4.index t (1 : Fin 2) * 512 + 1 * (j 1).val; omega
  · show V c main_v25 (((cfg1.win 2).blk t).view.emb (ix2 0 (j 1))) = _
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_4.index t (1 : Fin 2) * 512 + 1 * (j 1).val; omega
  · show V c main_v3 (((cfg1.win 3).blk t).view.emb (ix2 0 0)) = _
    refine congrArg _ (funext fun a => Fin.ext ?_)
    match a with
    | ⟨0, _⟩ => show win1_3.index t (0 : Fin 2) * 1 + 1 * 0 = 0; omega
    | ⟨1, _⟩ => show win1_3.index t (1 : Fin 2) * 1 + 1 * 0 = 0; omega

/-- An index of the output array is in point `t`'s block iff each coordinate is in the block's range on its axis. -/
theorem linMem (t : Fin cfg1.N) (i : S65536x512.Idx) :
    i ∈ ((cfg1.win 4).blk t).view.set ↔ ∀ a : Fin 2, win1_4.index t a * S2048x512.size a ≤ (i a).val ∧ (i a).val < win1_4.index t a * S2048x512.size a + S2048x512.size a := by
  show i ∈ ((View.whole main_v26).slice (win1_4.rect t)).set ↔ _
  rw [View.set_slice_whole, Rect.mem_set_unit]
  exact Iff.rfl

/-- Every row of the output is in the block of the point numbered by its quotient by 2048. -/
theorem linCovered (i : S65536x512.Idx) :
    ∃ t : Fin cfg1.N, (cfg1.win 4).flush t = true ∧ i ∈ ((cfg1.win 4).blk t).view.set := by
  have hi0 : (i 0).val < 65536 := (i 0).isLt
  have hi1 : (i 1).val < 512 := (i 1).isLt
  have hN : cfg1.N = 32 := N_1
  let t : Fin cfg1.N := ⟨(i 0).val / 2048, by rw [hN]; omega⟩
  obtain ⟨e00, e01, e10, e11, e20, e21, e30, e31, e40, e41⟩ := linIdx t
  have ht : t.val = (i 0).val / 2048 := rfl
  refine ⟨t, flush1_4 t, ?_⟩
  rw [linMem]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 512 ≤ (i 1).val ∧ (i 1).val < win1_4.index t (1 : Fin 2) * 512 + 512; omega

/-- THE OUTPUT ARRAY after the region: `linear` of the four arrays as the region finds them. -/
theorem linFinal (c : Dev nD) :
    (linDat V c).arrAt 4 cfg1.N = linear (V c main_v0) (V c main_v16) (V c main_v25) (V c main_v3) :=
  (linDat V c).arrAt_eq_of_cover 4 _ (fun t _ => linFlushed V c t) linCovered

end Cert.KernelIdeal.Hand

end
-- ==== Proof.ClipWords.lean ====
/-
  The clip bounds as extended reals.

  A quantization clips to the signed eight-bit range [-128, 127]. The bounds appear as f32 words (0xC3000000 is
  -128.0: sign set, exponent 134, significand zero, so -(2^23) * 2^(134 - 127 - 23) = -128; 0x42FE0000 is 127.0:
  exponent 133, significand 0x7E0000, so (2^23 + 0x7E0000) * 2^(133 - 127 - 23) = 127) and as 32-bit integers
  converted to f32 (the word 4294967168 = 2^32 - 128 read signed is -128; 127 read signed is 127). At the ideal
  values each denotes the real number it spells.
-/
import Idealize.ShloMosaic.PureOps.Ideal

noncomputable section

namespace Cert.ClipWords

open Idealize.ShloMosaic

/-- The f32 word 0xC3000000 denotes the real number -128. -/
theorem ofBits_neg128 : Ideal.ofBits .f32 0xC3000000#32 = ((-128 : ℝ) : EReal) := by
  simp [Ideal.ofBits, Ideal.ieee, -EReal.coe_mul]; norm_num

/-- The f32 word 0x42FE0000 denotes the real number 127. -/
theorem ofBits_127 : Ideal.ofBits .f32 0x42FE0000#32 = ((127 : ℝ) : EReal) := by
  simp [Ideal.ofBits, Ideal.ieee, -EReal.coe_mul]; norm_num

/-- The 32-bit integer word 4294967168 = 2^32 - 128, read signed and converted to f32, denotes the real number -128. -/
theorem sitofp_neg128 : FloatOps.sitofp (F := Ideal) .f32 (4294967168#32 : BitVec 32) = ((-128 : ℝ) : EReal) := by
  show ((((4294967168#32 : BitVec 32).toInt : ℤ) : ℝ) : EReal) = ((-128 : ℝ) : EReal)
  have e : (4294967168#32 : BitVec 32).toInt = -128 := by decide
  rw [e]; norm_num

/-- The 32-bit integer word 127, read signed and converted to f32, denotes the real number 127. -/
theorem sitofp_127 : FloatOps.sitofp (F := Ideal) .f32 (127#32 : BitVec 32) = ((127 : ℝ) : EReal) := by
  show ((((127#32 : BitVec 32).toInt : ℤ) : ℝ) : EReal) = ((127 : ℝ) : EReal)
  have e : (127#32 : BitVec 32).toInt = 127 := by decide
  rw [e]; norm_num

end Cert.ClipWords

end
-- ==== Proof.RefReads.lean ====
/-
  The reference's output entry, read down to extended-real arithmetic.

  The reference quantizes its three operands and multiplies: with scale = max|x| / 127 (a rank-zero array), the
  quantized activation is xq = clip(round(x / scale), -128, 127) * scale, where round is to the nearest integer with
  ties to even and clip(t, lo, hi) = min(hi, max(lo, t)); the quantized weights wq and the quantized bias bq come from
  their own chains. The output is the contraction of xq's last axis with wq's last axis plus the bias broadcast along
  the first two axes:
      out[p, s, o] = (Σ_k xq[p, s, k] * wq[o, k]) + bq[o].
  Here every operation of the activation's chain, the contraction and the final sum are read at an index; the scale,
  the quantized weights and the quantized bias stay as the stages that compute them. A broadcast of a rank-zero array
  reads its one element; the bias broadcast [512] -> [1, 1, 512] -> [8, 8192, 512] reads the bias at the last
  coordinate; the clip bounds are the integers -128 and 127 converted to f32.
-/
import proofs.«104424_j7687991459869_1_alg».proof.Proof.Gen.ReferenceIdeal.Read
import proofs.«104424_j7687991459869_1_alg».proof.Proof.ClipWords
import Idealize.ShloMosaic.Lib.Pipeline.Value
import Idealize.ShloMosaic.Lib.ValueIdx
import Idealize.ShloMosaic.PureOps.Ideal.Laws

noncomputable section

namespace Cert.RefReads

open Cert.ReferenceIdeal Cert.ReferenceIdeal.Gen Cert.ReferenceIdeal.Read
open Idealize.ShloMosaic Idealize.ShloMosaic.ValueIdx
open scoped BigOperators

/-! ## Index equations -/

/-- The contraction's left operand index at output (p, s, o) and contracted coordinate k is (p, s, k). -/
theorem lidx_eq (p : Fin 8) (s : Fin 8192) (o : Fin 512) (k : Fin 512) :
    lidx_main_v27 (ix3 p s o) k = ix3 p s k :=
  funext fun a => Fin.ext (by match a with | ⟨0, _⟩ => rfl | ⟨1, _⟩ => rfl | ⟨2, _⟩ => rfl)

/-- The contraction's right operand index at output (p, s, o) and contracted coordinate k is (o, k). -/
theorem ridx_eq (p : Fin 8) (s : Fin 8192) (o : Fin 512) (k : Fin 512) :
    ridx_main_v27 (ix3 p s o) k = ix2 o k :=
  funext fun a => Fin.ext (by match a with | ⟨0, _⟩ => rfl | ⟨1, _⟩ => rfl)

/-- The bias broadcast [512] -> [1, 1, 512] -> [8, 8192, 512] reads, at (p, s, o), the bias at o. -/
theorem bidx_eq (p : Fin 8) (s : Fin 8192) (o : Fin 512) :
    idx_main_v28 (idx_main_v29 (ix3 p s o)) = ix1 o :=
  funext fun a => Fin.ext (by match a with | ⟨0, _⟩ => rfl)

/-! ## The quantized activation at an index -/

/-- xq[p, s, k] = min(127, max(-128, round(x[p, s, k] / scale))) * scale, the scale being the rank-zero stage's one
    element. -/
theorem xq_entry (x : (⟨S8x8192x512, .f32⟩ : BufTy).Contents (Elt Ideal)) (p : Fin 8) (s : Fin 8192) (k : Fin 512) :
    val_main_v8 (F := Ideal) x (ix3 p s k)
      = min ((127 : ℝ) : EReal) (max ((-128 : ℝ) : EReal)
            (Ideal.liftRound Ideal.roundHalfEven (Ideal.div (x (ix3 p s k)) (val_main_v2 (F := Ideal) x ix0))))
          * val_main_v2 (F := Ideal) x ix0 := by
  rw [val_main_v8_apply, val_main_v6_apply, val_main_call1_v4_apply, val_main_call1_v3_apply, val_main_c_1_apply,
    val_main_call1_v2_apply, val_main_call1_v1_apply, val_main_call1_v0_apply, val_main_c_apply, val_main_v5_apply,
    val_main_v4_apply, val_main_v3_apply, val_main_v7_apply, Cert.ClipWords.sitofp_127, Cert.ClipWords.sitofp_neg128]
  rfl

/-! ## The output entry -/

/-- out[p, s, o] = (Σ_k xq[p, s, k] * wq[o, k]) + bq[o], with xq read down to the clip of the rounded quotient times
    the scale. -/
theorem ref_entry (x : (⟨S8x8192x512, .f32⟩ : BufTy).Contents (Elt Ideal)) (w : (⟨S512x512, .f32⟩ : BufTy).Contents (Elt Ideal))
    (b : (⟨S512, .f32⟩ : BufTy).Contents (Elt Ideal)) (p : Fin 8) (s : Fin 8192) (o : Fin 512) :
    val_main_v30 (F := Ideal) x w b (ix3 p s o)
      = (∑ k : Fin 512,
          (min ((127 : ℝ) : EReal) (max ((-128 : ℝ) : EReal)
              (Ideal.liftRound Ideal.roundHalfEven (Ideal.div (x (ix3 p s k)) (val_main_v2 (F := Ideal) x ix0))))
            * val_main_v2 (F := Ideal) x ix0)
          * val_main_v19 (F := Ideal) w (ix2 o k))
        + val_main_v26 (F := Ideal) x w b (ix1 o) := by
  rw [val_main_v30_apply, val_main_v27_apply, val_main_v29_apply, val_main_v28_apply, bidx_eq]
  refine congrArg (· + val_main_v26 (F := Ideal) x w b (ix1 o)) (Finset.sum_congr rfl fun k _ => ?_)
  rw [lidx_eq, ridx_eq, xq_entry]

end Cert.RefReads

end
-- ==== Proof.OnIdeal.Bridge.lean ====
/-
  The kernel's result is the reference's, entry by entry.

  Entry (p, s, o) of the result is entry (8192 p + s, o) of the fused matmul region's output:
      (sum over k of quantize (x (8192 p + s, k)) * wT (k, o)) + bias (0, o),
  where quantize v = min(127, max(-128, round(v / scale))) * scale. The four arrays the region reads are, entry by
  entry, the reference's: the reshaped activations at (8192 p + s, k) are the argument at (p, s, k); the scale is the
  reference's scale; the transposed quantised weights at (k, o) are the reference's quantised weights at (o, k); the bias
  row at (0, o) is the reference's quantised bias at o. The clip bounds are the same numbers spelt as float words on one
  side and as converted integers on the other. So the two sums have equal terms and the two results are equal.
-/
import proofs.«104424_j7687991459869_1_alg».proof.Proof.OnIdeal.Scale
import proofs.«104424_j7687991459869_1_alg».proof.Proof.OnIdeal.LinearValue
import proofs.«104424_j7687991459869_1_alg».proof.Proof.RefReads
import proofs.«104424_j7687991459869_1_alg».proof.Proof.LibAxisReads
import proofs.«104424_j7687991459869_1_alg».proof.Proof.ClipWords
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)
open Idealize.ShloMosaic.ValueIdx
open scoped BigOperators

variable (m : (ℓ : Loc nD τ sig) → Buf (Elt Ideal) ℓ)

/-! ## The four arrays the fused matmul region reads, entry by entry -/

/-- Row 8192 p + s of the reshaped activations is row s of matrix p of the argument. -/
theorem act_entry (c : Dev nD) (r : Fin 65536) (k : Fin 512) (p : Fin 8) (s : Fin 8192) (hr : r.val = p.val * 8192 + s.val) :
    V11 m c main_v0 (ix2 r k) = argX m c (ix3 p s k) := by
  rw [V11_main_v0]
  exact Cert.AxisReads.shapeCast_stack_tall_apply (argX m c) shapeCasts_S8x8192x512_S65536x512 r p s k hr

/-- The scale the region reads is the reference's. -/
theorem scale_entry (c : Dev nD) :
    V11 m c main_v3 (ix2 0 0) = Cert.ReferenceIdeal.Read.val_main_v2 (F := Ideal) (argX m c) ix0 :=
  (congrFun (V11_main_v3 m c) (ix2 0 0)).trans (kScale_eq m c)

/-- The weights the region reads at (k, o) are the reference's quantised weights at (o, k). -/
theorem weight_entry (c : Dev nD) (k o : Fin 512) :
    V11 m c main_v16 (ix2 k o) = Cert.ReferenceIdeal.Read.val_main_v19 (F := Ideal) (argW m c) (ix2 o k) := by
  rw [V11_main_v16]
  show transpose S512x512 [1, 0] (Cert.ReferenceIdeal.Read.val_main_v19 (F := Ideal) (argW m c) : FVec Ideal S512x512 .f32)
    transposes_S512x512_S512x512_1_0 (ix2 k o) = _
  exact transpose_ix2_apply _ _ k o

/-- The bias row the region reads at (0, o) is the reference's quantised bias at o. -/
theorem bias_entry (c : Dev nD) (o : Fin 512) :
    V11 m c main_v25 (ix2 0 o)
      = Cert.ReferenceIdeal.Read.val_main_v26 (F := Ideal) (argX m c) (argW m c) (argB m c) (ix1 o) := by
  rw [V11_main_v25, refBias_eq, ← kBiasScale_eq m c (argX m c) (kScale_eq m c)]
  exact shapeCast_apply _ shapeCasts_S512_S1x512 (ix2 0 o) (ix1 o) (by
    rw [Shape.rowMajor_val_one, Shape.rowMajor_val_two]
    show o.val = (0 : Fin 1).val * 512 + o.val
    have := (0 : Fin 1).isLt
    omega)

/-! ## The result -/

/-- Entry (p, s, o) of the kernel's result is the reference's. -/
theorem result_entry (c : Dev nD) (p : Fin 8) (s : Fin 8192) (o : Fin 512) :
    W13 m c (Proc.devRef .tc main_v27) (ix3 p s o)
      = Cert.ReferenceIdeal.Read.val_main_v30 (F := Ideal) (argX m c) (argW m c) (argB m c) (ix3 p s o) := by
  have hp := p.isLt
  have hs := s.isLt
  obtain ⟨r, hr⟩ : ∃ r : Fin 65536, r.val = p.val * 8192 + s.val := ⟨⟨p.val * 8192 + s.val, by omega⟩, rfl⟩
  have h1 : W13 m c (Proc.devRef .tc main_v27) (ix3 p s o) = W12 m c (Proc.devRef .tc main_v26) (ix2 r o) := by
    rw [W13_main_v27]
    exact Cert.AxisReads.shapeCast_tall_stack_apply _ shapeCasts_S65536x512_S8x8192x512 r p s o hr
  have h2 : W12 m c (Proc.devRef .tc main_v26) (ix2 r o)
      = (∑ k : Fin 512, quantize loWord hiWord (V11 m c main_v3 (ix2 0 0)) (V11 m c main_v0 (ix2 r k))
            * V11 m c main_v16 (ix2 k o))
        + V11 m c main_v25 (ix2 0 o) :=
    congrFun ((W12_main_v26 m c).trans (linFinal (V11 m) c)) (ix2 r o)
  rw [h1, h2, Cert.RefReads.ref_entry, scale_entry m c, bias_entry m c o]
  refine congrArg (· + _) (Finset.sum_congr rfl fun k _ => ?_)
  rw [act_entry m c r k p s hr, weight_entry m c k o]
  unfold quantize loWord hiWord
  rw [Cert.ClipWords.ofBits_neg128, Cert.ClipWords.ofBits_127]

/-- THE RESULT: the kernel's result array is the reference's function of the three arguments. -/
theorem result_eq (c : Dev nD) :
    W13 m c (Proc.devRef .tc main_v27)
      = Cert.ReferenceIdeal.Read.val_main_v30 (F := Ideal) (argX m c) (argW m c) (argB m c) := by
  funext i
  rw [eq_ix3 i]
  exact result_entry m c (i 0) (i 1) (i 2)

end Cert.KernelIdeal.Hand

end
-- ==== Proof.lean ====
/-
  A linear layer on fake-quantised tensors, against its plain reference, at the exact (extended-real) values.

  Both programs compute, for activations x [8, 8192, 512], weights w [512, 512] and bias b [512],
      out[p, s, o] = (sum over k of xq[p, s, k] * wq[o, k]) + bq[o],
  where xq = clip(round(x / sx), -128, 127) * sx with sx = max|x| / 127, wq the same per row of w with its own scale
  sw[o] = max_k |w[o, k]| / 127, and bq the same of b at the scale sx * sw[o] between the 32-bit bounds.

  The kernel takes max|x| in a first pass over 16 blocks of 4096 rows, carrying the running maximum in a scratch that
  starts at 0; since |v| is never negative that 0 changes nothing, and the result is the reference's maximum. A second
  pass over 32 blocks of 2048 rows quantises each block of x, multiplies it by the transposed quantised weights from the
  zero accumulator, and adds the bias row; a change of float format is the identity on values, and the blocks tile the
  rows. The quantised weights are formed by the same operations as the reference's, the bias scale by the same product in
  another layout. So the two results agree entry by entry; no law used needs the inputs finite, and the precondition is
  not opened. The kernel's program as printed and its idealisation both run to the end without a fault and leave their
  three arguments as launched; the idealisation rewrote no operation.
-/
import proofs.«104424_j7687991459869_1_alg».proof.Defs
import proofs.«104424_j7687991459869_1_alg».proof.Proof.Gen.Kernel
import proofs.«104424_j7687991459869_1_alg».proof.Proof.Gen.KernelIdeal
import proofs.«104424_j7687991459869_1_alg».proof.Proof.Gen.ReferenceIdeal
import proofs.«104424_j7687991459869_1_alg».proof.Proof.Gen.Pre_finite_inputs
import proofs.«104424_j7687991459869_1_alg».proof.Proof.Gen.ReferenceIdeal.Run
import proofs.«104424_j7687991459869_1_alg».proof.Proof.Gen.ReferenceIdeal.Read
import proofs.«104424_j7687991459869_1_alg».proof.Proof.OnWords.Run
import proofs.«104424_j7687991459869_1_alg».proof.Proof.OnIdeal.Run
import proofs.«104424_j7687991459869_1_alg».proof.Proof.OnIdeal.Bridge
import Idealize.ShloMosaic.Adequacy
import Idealize.ShloMosaic.Init

noncomputable section

namespace Cert.Proof

open Idealize.ShloMosaic Idealize.ShloMosaic.TcCoe Idealize.SL.Sem

/-- The program as printed runs to the end and leaves its arguments as launched. -/
theorem frame_words : Cert.frame_Kernel := fun m ρ _ => Cert.Kernel.Hand.frame m ρ

/-- So does its idealisation. -/
theorem frame_ideal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the same result array: the kernel's run leaves its
    result at the last boundary's contents, the reference's at its composed term, and the two are one function of the
    arguments. -/
theorem algebraic : Cert.algebraic_KernelIdeal_ReferenceIdeal := by
  intro m ρ m' ρ' _ hagree
  refine ⟨fun c => Cert.KernelIdeal.Hand.W13 m c (Proc.devRef .tc Cert.KernelIdeal.main_v27), ?_, ?_⟩
  · exact (θ_run Cert.KernelIdeal.defs _ _).mono (fun _ h c =>
      ⟨h c Cert.KernelIdeal.main_v27 (by decide),
        (h c Cert.KernelIdeal.main_arg0 (by decide)).trans (Cert.KernelIdeal.Hand.W13_main_arg0 m c),
        (h c Cert.KernelIdeal.main_arg1 (by decide)).trans (Cert.KernelIdeal.Hand.W13_main_arg1 m c),
        (h c Cert.KernelIdeal.main_arg2 (by decide)).trans (Cert.KernelIdeal.Hand.W13_main_arg2 m c)⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v30_eq _ _ _).trans (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
